-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S32x2048x2048 : Shape := ⟨3, ![32, 2048, 2048]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel
  bcast_S_S32x2048x2048 : S_.BroadcastsInDim S32x2048x2048 (![] : Fin 0 → Fin S32x2048x2048.rank)
  reducesTo_S32x2048x2048_S_d0_1_2 : S32x2048x2048.ReducesTo [0, 1, 2] S_

variable [Facts]

def fn_part1 {F : FTy → Type} [FloatOps F] (main_arg3 : IVec S32x2048x2048 32) (main_v13 : IVec S_ 1) (main_v15 : IVec S32x2048x2048 1) (main_c_5 : IVec S_ 32) : IVec S_ 1 :=
  let main_v16 : IVec S32x2048x2048 32 := broadcastInDim S32x2048x2048 ![] bcast_S_S32x2048x2048 main_c_5
  let main_v17 : IVec S32x2048x2048 1 := cmpi .sle main_arg3 main_v16
  let main_v18 : IVec S32x2048x2048 1 := andi main_v15 main_v17
  let main_c_6 : IVec S_ 1 := constantI S_ 1 1#1
  let main_v19 : IVec S_ 1 := (fun x v => Host.reduce IntOp.andi x v reducesTo_S32x2048x2048_S_d0_1_2 h_S_) main_v18 main_c_6
  let main_v20 : IVec S_ 1 := andi main_v13 main_v19
  main_v20

def fn {F : FTy → Type} [FloatOps F] (main_arg0 : FVec F S32x2048x64 .f32) (main_arg1 : FVec F S32x2048x64 .f32) (main_arg2 : FVec F S32x2048x64 .f32) (main_arg3 : IVec S32x2048x2048 32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  let main_c_4 : IVec S_ 32 := constantI S_ 32 0#32
  let main_v14 : IVec S32x2048x2048 32 := broadcastInDim S32x2048x2048 ![] bcast_S_S32x2048x2048 main_c_4
  let main_v15 : IVec S32x2048x2048 1 := cmpi .sge main_arg3 main_v14
  let main_c_5 : IVec S_ 32 := constantI S_ 32 1#32
  fn_part1 (F := F) main_arg3 main_v13 main_v15 main_c_5
-- ==== Kernel.lean ====
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .i32⟩
  | .hbm, ⟨4, _⟩ => ⟨S32x2048x64, .f32⟩
  | .hbm, ⟨5, _⟩ => ⟨S32x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x512x2048, .i32⟩
  | .local _ .vmem, ⟨5, _⟩ => ⟨S1x512x2048, .i32⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S32x2048x2048.size a
  hwx0_3 : ∀ i : grid0.Coords, EltTy.bits .i32 = 32 ∨ (Rect.block (s := S32x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S32x2048x64.size a
  hwx0_4 : ∀ i : grid0.Coords, EltTy.bits .f32 = 32 ∨ (Rect.block (s := S32x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S32x2048x2048.size a
  hwx0_5 : ∀ i : grid0.Coords, EltTy.bits .f32 = 32 ∨ (Rect.block (s := S32x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .i32⟩
  | .hbm, ⟨4, _⟩ => ⟨S32x2048x2048, .f32⟩
  | .hbm, ⟨5, _⟩ => ⟨S_, .f32⟩
  | .hbm, ⟨6, _⟩ => ⟨S32x2048x2048, .f32⟩
  | .hbm, ⟨7, _⟩ => ⟨S32x2048x2048, .f32⟩
  | .hbm, ⟨8, _⟩ => ⟨S32x2048x2048, .f32⟩
  | .hbm, ⟨9, _⟩ => ⟨S32x2048x2048, .f32⟩
  | .hbm, ⟨10, _⟩ => ⟨S_, .f32⟩
  | .hbm, ⟨11, _⟩ => ⟨S32x2048, .f32⟩
  | .hbm, ⟨12, _⟩ => ⟨S_, .f32⟩
  | .hbm, ⟨13, _⟩ => ⟨S32x2048, .f32⟩
  | .hbm, ⟨14, _⟩ => ⟨S32x2048, .f32⟩
  | .hbm, ⟨15, _⟩ => ⟨S32x2048x1, .f32⟩
  | .hbm, ⟨16, _⟩ => ⟨S32x2048x2048, .f32⟩
  | .hbm, ⟨17, _⟩ => ⟨S32x2048x2048, .f32⟩
  | .hbm, ⟨18, _⟩ => ⟨S32x2048x2048, .f32⟩
  | .hbm, ⟨19, _⟩ => ⟨S_, .f32⟩
  | .hbm, ⟨20, _⟩ => ⟨S32x2048, .f32⟩
  | .hbm, ⟨21, _⟩ => ⟨S32x2048x1, .f32⟩
  | .hbm, ⟨22, _⟩ => ⟨S32x2048x2048, .f32⟩
  | .hbm, ⟨23, _⟩ => ⟨S32x2048x2048, .f32⟩
  | .hbm, ⟨24, _⟩ => ⟨S32x2048x2048, .f32⟩
  | .hbm, ⟨25, _⟩ => ⟨S_, .f32⟩
  | .hbm, ⟨26, _⟩ => ⟨S32x2048, .f32⟩
  | .hbm, ⟨27, _⟩ => ⟨S32x2048x1, .f32⟩
  | .hbm, ⟨28, _⟩ => ⟨S_, .f32⟩
  | .hbm, ⟨29, _⟩ => ⟨S32x2048x1, .f32⟩
  | .hbm, ⟨30, _⟩ => ⟨S32x2048x1, .f32⟩
  | .hbm, ⟨31, _⟩ => ⟨S32x2048x2048, .f32⟩
  | .hbm, ⟨32, _⟩ => ⟨S32x2048x2048, .f32⟩
  | .hbm, ⟨33, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  bcast_S_S32x2048x1 : S_.BroadcastsInDim S32x2048x1 (![] : Fin 0 → Fin S32x2048x1.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.LibSoftmax.lean ====
/-
  The row law of a softmax-weighted sum over the extended reals (general: any row length, imports only the library).
  `rmax` (a row's maximum folded from an initial value), `scaledSum` and `weightedSum` (the two arrangements below),
  `weightedSum_eq_scaledSum` (they agree on finite rows), `rmax_real`, `coe_sum` (the coercion of a finite real sum),
  `sum_mul_finite` (a finite sum of products of finite extended reals is finite), and the binary32 patterns of `-∞`
  and `1.0` as the extended reals they denote.

  A row of scores `s n` (n < N) and a column of values `β n`.  With `M` the row's maximum taken from `-∞`,
  `e n = exp (s n - M)` and `l = ∑ e n`, one program normalises the weights first and then sums,
  `∑ (e n / l) · β n`, the other sums first and scales the sum by the reciprocal, `(∑ e n · β n) · (1 / l)`.
  When every score and every value is a real number the maximum is a real, every `e n` is a positive real, `l` is a
  positive real, and the two are the same real number: the factor `1 / l` moves across the finite sum.
  (At an infinite score or value the distributive law fails on the extended reals; finiteness is used.)
-/
import Idealize.ShloMosaic.PureOps.Ideal
import Idealize.ShloMosaic.PureOps.Ideal.Laws
import Mathlib.Algebra.BigOperators.Ring.Finset
import Mathlib.Algebra.Order.BigOperators.Ring.Finset
import Mathlib.Tactic.Ring
import Mathlib.Tactic.FieldSimp

noncomputable section

namespace Cert.LibSoftmax

open Idealize.ShloMosaic
open scoped BigOperators

variable {N : ℕ}

/-- The coercion of a finite sum of reals is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A row's maximum, folded from the initial value `b`. -/
def rmax (b : EReal) (s : Fin N → EReal) : EReal := (Finset.univ : Finset (Fin N)).fold max b s

/-- Sum first, then scale by the reciprocal of the normaliser: `(∑ e n · β n) · (one / ∑ e n)`. -/
def scaledSum (b one : EReal) (s β : Fin N → EReal) : EReal :=
  (∑ n, Ideal.exp (s n - rmax b s) * β n) * Ideal.div one (∑ n, Ideal.exp (s n - rmax b s))

/-- Normalise first, then sum: `∑ (e n / (z + ∑ e n)) · β n`, the maximum joined once more with its initial value. -/
def weightedSum (b z : EReal) (s β : Fin N → EReal) : EReal :=
  ∑ n, Ideal.div (Ideal.exp (s n - max b (rmax b s))) (z + ∑ n', Ideal.exp (s n' - max b (rmax b s))) * β n

/-- The maximum from `-∞` of a nonempty row of reals is a real. -/
theorem rmax_real (hN : 0 < N) (σ : Fin N → ℝ) : ∃ μ : ℝ, rmax ⊥ (fun n => (σ n : EReal)) = (μ : EReal) := by
  have hlt : rmax ⊥ (fun n => (σ n : EReal)) < ⊤ := by
    unfold rmax
    rw [Finset.fold_max_lt]
    exact ⟨bot_lt_top, fun n _ => EReal.coe_lt_top _⟩
  have hgt : ⊥ < rmax ⊥ (fun n => (σ n : EReal)) := by
    refine lt_of_lt_of_le (EReal.bot_lt_coe (σ ⟨0, hN⟩)) ?_
    unfold rmax
    rw [Finset.le_fold_max]
    exact Or.inr ⟨⟨0, hN⟩, Finset.mem_univ _, le_refl _⟩
  exact ⟨(rmax ⊥ (fun n => (σ n : EReal))).toReal, (EReal.coe_toReal hlt.ne hgt.ne').symm⟩

/-- THE LAW, on real witnesses: normalising the weights before the sum or scaling the sum afterwards is the same. -/
theorem weightedSum_eq_scaledSum_coe (hN : 0 < N) (σ β : Fin N → ℝ) :
    weightedSum ⊥ 0 (fun n => (σ n : EReal)) (fun n => (β n : EReal))
      = scaledSum ⊥ 1 (fun n => (σ n : EReal)) (fun n => (β n : EReal)) := by
  obtain ⟨μ, hμ⟩ := rmax_real hN σ
  unfold weightedSum scaledSum
  rw [max_eq_right bot_le, hμ, zero_add]
  simp only [← EReal.coe_sub, Ideal.exp_coe]
  have hl : 0 < ∑ n, Real.exp (σ n - μ) :=
    Finset.sum_pos (fun n _ => Real.exp_pos _) ⟨⟨0, hN⟩, Finset.mem_univ _⟩
  rw [← coe_sum]
  simp only [Ideal.div_coe hl.ne', ← EReal.coe_mul]
  rw [← coe_sum, ← coe_sum, ← EReal.coe_one, ← EReal.coe_mul, ← EReal.coe_mul, Finset.sum_mul]
  congr 1
  refine Finset.sum_congr rfl fun n _ => ?_
  ring

/-- THE LAW on extended reals that are all finite. -/
theorem weightedSum_eq_scaledSum (hN : 0 < N) (s β : Fin N → EReal)
    (hs : ∀ n, s n ≠ ⊤ ∧ s n ≠ ⊥) (hβ : ∀ n, β n ≠ ⊤ ∧ β n ≠ ⊥) :
    weightedSum ⊥ 0 s β = scaledSum ⊥ 1 s β := by
  obtain ⟨σ, rfl⟩ : ∃ σ : Fin N → ℝ, s = fun n => (σ n : EReal) :=
    ⟨fun n => (s n).toReal, funext fun n => (EReal.coe_toReal (hs n).1 (hs n).2).symm⟩
  obtain ⟨β', rfl⟩ : ∃ β' : Fin N → ℝ, β = fun n => (β' n : EReal) :=
    ⟨fun n => (β n).toReal, funext fun n => (EReal.coe_toReal (hβ n).1 (hβ n).2).symm⟩
  exact weightedSum_eq_scaledSum_coe hN σ β'

/-- A finite sum of products of finite extended reals is finite. -/
theorem sum_mul_finite {K : ℕ} (x y : Fin K → EReal) (hx : ∀ k, x k ≠ ⊤ ∧ x k ≠ ⊥) (hy : ∀ k, y k ≠ ⊤ ∧ y k ≠ ⊥) :
    (∑ k, x k * y k) ≠ ⊤ ∧ (∑ k, x k * y k) ≠ ⊥ := by
  obtain ⟨x', rfl⟩ : ∃ x' : Fin K → ℝ, x = fun n => (x' n : EReal) :=
    ⟨fun n => (x n).toReal, funext fun n => (EReal.coe_toReal (hx n).1 (hx n).2).symm⟩
  obtain ⟨y', rfl⟩ : ∃ y' : Fin K → ℝ, y = fun n => (y' n : EReal) :=
    ⟨fun n => (y n).toReal, funext fun n => (EReal.coe_toReal (hy n).1 (hy n).2).symm⟩
  simp only [← EReal.coe_mul]
  rw [← coe_sum]
  exact ⟨EReal.coe_ne_top _, EReal.coe_ne_bot _⟩

/-- The binary32 pattern of `-∞` denotes the bottom of the extended reals. -/
theorem ofBits_neg_inf : Ideal.ofBits .f32 0xFF800000#32 = ⊥ := by
  simp [Ideal.ofBits, Ideal.ieee]

/-- The binary32 pattern of `1.0` denotes `1`. -/
theorem ofBits_one : Ideal.ofBits .f32 0x3F800000#32 = 1 :=
  IdealRules.sign_bit.ideal_onePat .f32

end Cert.LibSoftmax

end
-- ==== Proof.LibMaskedSoftmax.lean ====
/-
  The row law of a multiplicatively masked, renormalised softmax over the extended reals (general: any row length;
  built on the row maximum and the coercion of finite sums of the softmax file beside it).

  A row of scores `x n` (n < N) and a row of mask weights `μ n`.  With `M` the row's maximum taken from `-∞`,
  `e n = exp (x n - M)`, `L = ∑ e n` and `S = ∑ e n · μ n`, the masked weights `e n · μ n` are renormalised with a
  small `ε` in the denominator, in two arrangements:

  * sum first:        `(e j · μ j) · (1 / (S + ε · L))` — the reciprocal of one denominator per row, multiplied in;
  * normalise first:  `((e j / L) · μ j) / (∑ (e n / L) · μ n + ε)` — a softmax, masked again, divided by its own sum plus `ε`.

  When every score is a real number, every weight a real `≥ 0` and `ε` a real `> 0`, the maximum is a real, every
  `e n` is a positive real, `L > 0`, `S ≥ 0`, both denominators are positive reals (the second is the first over `L`),
  and the two are the same real number `e j · μ j / (S + ε · L)`.
  (With a negative weight a denominator can vanish; a quotient by zero and a product with the reciprocal of zero differ
  on the extended reals at a zero numerator, so the sign condition is used. Finiteness is used to move `1 / L` across the sum.)
-/
import proofs.«180524_j31035433681575_2_alg».proof.Proof.LibSoftmax
import Mathlib.Tactic.Positivity
import Mathlib.Tactic.FieldSimp
import Mathlib.Tactic.Ring

noncomputable section

namespace Cert.LibMaskedSoftmax

open Idealize.ShloMosaic Cert.LibSoftmax
open scoped BigOperators

variable {N : ℕ}

/-- Sum first: the masked weight times the reciprocal of `S + ε · L`, the maximum folded from `b`. -/
def sumFirst (b one ε : EReal) (x μ : Fin N → EReal) (j : Fin N) : EReal :=
  (Ideal.exp (x j - rmax b x) * μ j) *
    Ideal.div one ((∑ n, Ideal.exp (x n - rmax b x) * μ n) + ε * ∑ n, Ideal.exp (x n - rmax b x))

/-- Normalise first: the softmax weight `e j / (z + L)`, masked, over its own sum (from `z`) plus `ε`; the maximum
    joined once more with its initial value. -/
def normFirst (b z ε : EReal) (x μ : Fin N → EReal) (j : Fin N) : EReal :=
  Ideal.div
    (Ideal.div (Ideal.exp (x j - max b (rmax b x))) (z + ∑ n, Ideal.exp (x n - max b (rmax b x))) * μ j)
    ((z + ∑ n, Ideal.div (Ideal.exp (x n - max b (rmax b x))) (z + ∑ n', Ideal.exp (x n' - max b (rmax b x))) * μ n) + ε)

/-- A quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

/-- THE LAW, on real witnesses. -/
theorem normFirst_eq_sumFirst_coe (hN : 0 < N) (σ ν : Fin N → ℝ) (hν : ∀ n, 0 ≤ ν n) (ε : ℝ) (hε : 0 < ε) (j : Fin N) :
    normFirst ⊥ 0 (ε : EReal) (fun n => (σ n : EReal)) (fun n => (ν n : EReal)) j
      = sumFirst ⊥ 1 (ε : EReal) (fun n => (σ n : EReal)) (fun n => (ν n : EReal)) j := by
  obtain ⟨M, hM⟩ := rmax_real hN σ
  unfold normFirst sumFirst
  rw [max_eq_right bot_le, hM]
  simp only [zero_add, ← EReal.coe_sub, Ideal.exp_coe]
  have he : ∀ n, 0 < Real.exp (σ n - M) := fun n => Real.exp_pos _
  have hL : 0 < ∑ n, Real.exp (σ n - M) := Finset.sum_pos (fun n _ => he n) ⟨⟨0, hN⟩, Finset.mem_univ _⟩
  rw [← coe_sum]
  simp only [div_coe_coe _ _ hL.ne', ← EReal.coe_mul]
  rw [← coe_sum, ← coe_sum]
  simp only [← EReal.coe_add, ← EReal.coe_mul]
  have hS : 0 ≤ ∑ i, Real.exp (σ i - M) * ν i := Finset.sum_nonneg fun n _ => mul_nonneg (he n).le (hν n)
  have hD : 0 < ∑ i, Real.exp (σ i - M) * ν i + ε * ∑ i, Real.exp (σ i - M) :=
    add_pos_of_nonneg_of_pos hS (mul_pos hε hL)
  -- the softmax weights, masked and summed, are `S / L`
  have hS' : ∑ i, (Real.exp (σ i - M) / ∑ i, Real.exp (σ i - M)) * ν i
      = (∑ i, Real.exp (σ i - M) * ν i) / ∑ i, Real.exp (σ i - M) := by
    rw [Finset.sum_div]; exact Finset.sum_congr rfl fun n _ => div_mul_eq_mul_div _ _ _
  -- so the second denominator is the first over `L`
  have hkey : (∑ i, Real.exp (σ i - M) * ν i) / (∑ i, Real.exp (σ i - M)) + ε
      = (∑ i, Real.exp (σ i - M) * ν i + ε * ∑ i, Real.exp (σ i - M)) / ∑ i, Real.exp (σ i - M) := by
    rw [add_div, mul_div_assoc, div_self hL.ne', mul_one]
  have hD' : 0 < ∑ i, (Real.exp (σ i - M) / ∑ i, Real.exp (σ i - M)) * ν i + ε := by
    rw [hS', hkey]; exact div_pos hD hL
  rw [div_coe_coe _ _ hD'.ne', ← EReal.coe_one, div_coe_coe _ _ hD.ne', ← EReal.coe_mul, EReal.coe_eq_coe_iff, hS', hkey,
    div_mul_eq_mul_div, div_div_div_cancel_right₀ hL.ne', mul_one_div]

/-- THE LAW on the extended reals: finite scores, finite weights that are `≥ 0`, `ε` a positive real. -/
theorem normFirst_eq_sumFirst (hN : 0 < N) (x μ : Fin N → EReal) (hx : ∀ n, x n ≠ ⊤ ∧ x n ≠ ⊥)
    (hμ : ∀ n, μ n ≠ ⊤ ∧ 0 ≤ μ n) (ε : ℝ) (hε : 0 < ε) (j : Fin N) :
    normFirst ⊥ 0 (ε : EReal) x μ j = sumFirst ⊥ 1 (ε : EReal) x μ j := by
  obtain ⟨σ, rfl⟩ : ∃ σ : Fin N → ℝ, x = fun n => (σ n : EReal) :=
    ⟨fun n => (x n).toReal, funext fun n => (EReal.coe_toReal (hx n).1 (hx n).2).symm⟩
  obtain ⟨ν, rfl⟩ : ∃ ν : Fin N → ℝ, μ = fun n => (ν n : EReal) :=
    ⟨fun n => (μ n).toReal, funext fun n =>
      (EReal.coe_toReal (hμ n).1 (ne_bot_of_le_ne_bot EReal.zero_ne_bot (hμ n).2)).symm⟩
  exact normFirst_eq_sumFirst_coe hN σ ν (fun n => EReal.coe_nonneg.mp (hμ n).2) ε hε j

end Cert.LibMaskedSoftmax

end
-- ==== Proof.AttnSpec.lean ====
/-
  The result both programs compute, as ONE function of the argument arrays, index by index.

  Batch `b`, query row `r`, key `l`, feature `d`.  The masked score of key `l` for query `(b, r)` is
  `x l = (∑ d, (Q[b,r,d] · c) · K[b,l,d]) · M[b,r,l]`, the mask entry read as a number.  With `m` the row's maximum,
  `e l = exp (x l - m)`, `L = ∑ e l`, `S = ∑ e l · M[b,r,l]`:

    attention[b,r,j] = (e j · M[b,r,j]) · (1 / (S + ε · L))        (the row law's "sum first" arrangement)
    output[b,r,d]    = ∑ l, attention[b,r,l] · V[b,l,d]

  The float constants stay the words the programs spell (`wb` the maximum's initial value, `w1` the numerator of the
  reciprocal, `wε`, `c`): the same word on both sides is never evaluated.
-/
import proofs.«180524_j31035433681575_2_alg».proof.Proof.LibMaskedSoftmax
import Idealize.ShloMosaic.Lib.ValueIdx

noncomputable section

namespace Cert.Attn

open Idealize.ShloMosaic Idealize.ShloMosaic.ValueIdx Cert.LibMaskedSoftmax
open scoped BigOperators

/-- One query row's masked scores: key `l`'s score against the query `q` (each entry scaled by `c`), times `l`'s mask weight. -/
def xrow (c : EReal) (q : Fin 64 → EReal) (k : Fin 2048 → Fin 64 → EReal) (μ : Fin 2048 → EReal) (l : Fin 2048) : EReal :=
  (∑ d : Fin 64, (q d * c) * k l d) * μ l

/-- One query row's attention weights. -/
def attnRow (wb w1 wε c : EReal) (q : Fin 64 → EReal) (k : Fin 2048 → Fin 64 → EReal) (μ : Fin 2048 → EReal)
    (j : Fin 2048) : EReal :=
  sumFirst wb w1 wε (xrow c q k μ) μ j

abbrev Sqkv : Shape := ⟨3, ![32, 2048, 64]⟩
abbrev Smask : Shape := ⟨3, ![32, 2048, 2048]⟩

/-- The mask entry as a number: the signed integer, exactly. -/
def maskVal (Mk : Smask.Idx → BitVec 32) (i : Smask.Idx) : EReal := (((Mk i).toInt : ℝ) : EReal)

/-- The attention weight at batch `b`, query row `r`, key `j`. -/
def attnAt (wb w1 wε c : EReal) (Q K : Sqkv.Idx → EReal) (Mk : Smask.Idx → BitVec 32) (b : Fin 32) (r j : Fin 2048) : EReal :=
  attnRow wb w1 wε c (fun d => Q (ix3 b r d)) (fun l d => K (ix3 b l d)) (fun l => maskVal Mk (ix3 b r l)) j

/-- The output at batch `b`, query row `r`, feature `d`: the attention row against column `d` of the values. -/
def outAt (wb w1 wε c : EReal) (Q K V : Sqkv.Idx → EReal) (Mk : Smask.Idx → BitVec 32) (b : Fin 32) (r : Fin 2048)
    (d : Fin 64) : EReal :=
  ∑ l : Fin 2048, attnAt wb w1 wε c Q K Mk b r l * V (ix3 b l d)

/-- The attention array. -/
def attnArr (wb w1 wε c : EReal) (Q K : Sqkv.Idx → EReal) (Mk : Smask.Idx → BitVec 32) : Smask.Idx → EReal :=
  fun i => attnAt wb w1 wε c Q K Mk (i 0) (i 1) (i 2)

/-- The output array. -/
def outArr (wb w1 wε c : EReal) (Q K V : Sqkv.Idx → EReal) (Mk : Smask.Idx → BitVec 32) : Sqkv.Idx → EReal :=
  fun i => outAt wb w1 wε c Q K V Mk (i 0) (i 1) (i 2)

theorem attnArr_ix3 (wb w1 wε c : EReal) (Q K : Sqkv.Idx → EReal) (Mk : Smask.Idx → BitVec 32) (b : Fin 32) (r j : Fin 2048) :
    attnArr wb w1 wε c Q K Mk (ix3 b r j) = attnAt wb w1 wε c Q K Mk b r j := rfl

theorem outArr_ix3 (wb w1 wε c : EReal) (Q K V : Sqkv.Idx → EReal) (Mk : Smask.Idx → BitVec 32) (b : Fin 32) (r : Fin 2048)
    (d : Fin 64) : outArr wb w1 wε c Q K V Mk (ix3 b r d) = outAt wb w1 wε c Q K V Mk b r d := rfl

/-- The attention array with the words both programs spell: `-∞` under the maximum, `1.0` over the denominator, `ε`, and
    the scale `0.125`. -/
def attnOf (Q K : Sqkv.Idx → EReal) (Mk : Smask.Idx → BitVec 32) : Smask.Idx → EReal :=
  attnArr (Ideal.ofBits .f32 0xFF800000#32) (Ideal.ofBits .f32 0x3F800000#32) (Ideal.ofBits .f32 0x29E12E13#32)
    (Ideal.ofBits .f32 0x3E000000#32) Q K Mk

/-- The output array with the same words. -/
def outOf (Q K V : Sqkv.Idx → EReal) (Mk : Smask.Idx → BitVec 32) : Sqkv.Idx → EReal :=
  outArr (Ideal.ofBits .f32 0xFF800000#32) (Ideal.ofBits .f32 0x3F800000#32) (Ideal.ofBits .f32 0x29E12E13#32)
    (Ideal.ofBits .f32 0x3E000000#32) Q K V Mk

theorem attnOf_ix3 (Q K : Sqkv.Idx → EReal) (Mk : Smask.Idx → BitVec 32) (b : Fin 32) (r j : Fin 2048) :
    attnOf Q K Mk (ix3 b r j) = attnAt (Ideal.ofBits .f32 0xFF800000#32) (Ideal.ofBits .f32 0x3F800000#32)
      (Ideal.ofBits .f32 0x29E12E13#32) (Ideal.ofBits .f32 0x3E000000#32) Q K Mk b r j := rfl

theorem outOf_ix3 (Q K V : Sqkv.Idx → EReal) (Mk : Smask.Idx → BitVec 32) (b : Fin 32) (r : Fin 2048) (d : Fin 64) :
    outOf Q K V Mk (ix3 b r d) = ∑ l : Fin 2048, attnOf Q K Mk (ix3 b r l) * V (ix3 b l d) := rfl

end Cert.Attn

end
-- ==== Proof.LibDot.lean ====
/-
  Contractions and layout operations read at an index, in the forms the score head and the distance head need:
  a one-axis contraction (a matrix product of either program) as a sum over `Fin K`, and row-major positions of small ranks.
-/
import Idealize.ShloMosaic.PureOps.Ideal.Laws
import Idealize.ShloMosaic.Lib.ValueIdx
import Idealize.ShloMosaic.Lib.Pipeline.Value

noncomputable section

namespace Cert.LibDot

open Idealize.ShloMosaic Idealize.ShloMosaic.ValueIdx

/-- A contraction over ONE axis of extent `K`, re-indexed by that axis's coordinate: whatever the two operand indices
    are at the contraction position whose one coordinate is `k` (`hL`, `hR`), the sum over the contraction shape is the sum
    over `Fin K` of the operands there. -/
theorem sum_contr_eq {sl sr so : Shape} (D : DotDims sl sr so) (K : ℕ) (hr : D.contr.rank = 1)
    (hs : D.contr.size ⟨0, by omega⟩ = K) (x : sl.Idx → EReal) (y : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, x (D.lhsIdx j k) * y (D.rhsIdx j k) = ∑ k : Fin K, x (L k) * y (R k) := by
  rw [← Equiv.sum_comp (contrEquiv1 D K hr hs).symm]
  exact Finset.sum_congr rfl fun k _ => by rw [hL, hR]

end Cert.LibDot

end
-- ==== Proof.KernelOps.lean ====
/-
  The kernel body's operations that are not pointwise, each read at an index given by coordinates: the two matrix
  products as plain sums over the contracted coordinate (the scores over the 64 features, the output over the 2048
  keys), and a row's maximum and a row's sum over the 2048 keys.
-/
import proofs.«180524_j31035433681575_2_alg».proof.Proof.Gen.KernelIdeal
import proofs.«180524_j31035433681575_2_alg».proof.Proof.LibDot
import proofs.«180524_j31035433681575_2_alg».proof.Proof.LibSoftmax
import Idealize.ShloMosaic.Lib.ValueIdx
import Idealize.ShloMosaic.PureOps.Ideal.Laws

noncomputable section

namespace Cert.KernelIdeal.Ops

open Cert.KernelIdeal Cert.KernelIdeal.Gen Idealize.ShloMosaic Idealize.ShloMosaic.ValueIdx Cert.LibSoftmax
open scoped BigOperators

/-! ## The score product: query rows against key rows, contracted over the feature -/

/-- The score product's dimension record. -/
abbrev Dqk := dot_S512x64_S2048x64_S512x2048_1_1_0_0_n_n
/-- The output product's dimension record. -/
abbrev Dav := dot_S512x2048_S2048x64_S512x64_1_0_0_1_n_n

theorem scoreL_row (j : S512x2048.Idx) (q : Dqk.contr.Idx) : (Dqk.lhsIdx j q 0).val = (j 0).val := by
  unfold DotDims.lhsIdx
  rw [dif_neg (show ¬(0 : Fin S512x64.rank) ∈ Dqk.lhsBatch by decide),
    dif_pos (show (0 : Fin S512x64.rank) ∈ Dqk.lhsNonContracting by decide)]
  rfl
theorem scoreL_feat (j : S512x2048.Idx) (q : Dqk.contr.Idx) : (Dqk.lhsIdx j q 1).val = (q ⟨0, by decide⟩).val :=
  Dqk.lhsIdx_val_of_single rfl j q
theorem scoreR_row (j : S512x2048.Idx) (q : Dqk.contr.Idx) : (Dqk.rhsIdx j q 0).val = (j 1).val := by
  unfold DotDims.rhsIdx
  rw [dif_neg (show ¬(0 : Fin S2048x64.rank) ∈ Dqk.rhsBatch by decide),
    dif_pos (show (0 : Fin S2048x64.rank) ∈ Dqk.rhsNonContracting by decide)]
  rfl
theorem scoreR_feat (j : S512x2048.Idx) (q : Dqk.contr.Idx) : (Dqk.rhsIdx j q 1).val = (q ⟨0, by decide⟩).val :=
  Dqk.rhsIdx_val_of_single rfl j q

/-- The left operand index of score `(r, l)` at feature `d` is `(r, d)`. -/
theorem scoreL (r : Fin 512) (l : Fin 2048) (d : Fin 64) :
    Dqk.lhsIdx (ix2 r l) ((contrEquiv1 Dqk 64 rfl rfl).symm d) = ix2 r d := by
  have hk := contrEquiv1_symm_val Dqk 64 rfl rfl d
  exact funext fun a => Fin.ext (by
    match a with
    | ⟨0, _⟩ => exact scoreL_row _ _
    | ⟨1, _⟩ => exact (scoreL_feat _ _).trans hk)

/-- The right operand index of score `(r, l)` at feature `d` is `(l, d)`. -/
theorem scoreR (r : Fin 512) (l : Fin 2048) (d : Fin 64) :
    Dqk.rhsIdx (ix2 r l) ((contrEquiv1 Dqk 64 rfl rfl).symm d) = ix2 l d := by
  have hk := contrEquiv1_symm_val Dqk 64 rfl rfl d
  exact funext fun a => Fin.ext (by
    match a with
    | ⟨0, _⟩ => exact scoreR_row _ _
    | ⟨1, _⟩ => exact (scoreR_feat _ _).trans hk)

/-- The score of query row `r` against key `l`: the sum over the features of the products. -/
theorem scores_apply (q : FVec Ideal S512x64 .bf16) (k' : FVec Ideal S2048x64 .bf16) (r : Fin 512) (l : Fin 2048) :
    matmul dot_S512x64_S2048x64_S512x2048_1_1_0_0_n_n none q k' (constant S512x2048 .f32 0x00000000#32) (ix2 r l)
      = ∑ d : Fin 64, q (ix2 r d) * k' (ix2 l d) :=
  (Ideal.matmul_constant_zero_apply _ none q k' (ix2 r l)).trans
    (Cert.LibDot.sum_contr_eq Dqk 64 rfl rfl q k' (ix2 r l) (fun d => ix2 r d) (fun d => ix2 l d)
      (scoreL r l) (scoreR r l))

/-! ## The output product: attention rows against value columns, contracted over the key -/

theorem outL_row (j : S512x64.Idx) (q : Dav.contr.Idx) : (Dav.lhsIdx j q 0).val = (j 0).val := by
  unfold DotDims.lhsIdx
  rw [dif_neg (show ¬(0 : Fin S512x2048.rank) ∈ Dav.lhsBatch by decide),
    dif_pos (show (0 : Fin S512x2048.rank) ∈ Dav.lhsNonContracting by decide)]
  rfl
theorem outL_key (j : S512x64.Idx) (q : Dav.contr.Idx) : (Dav.lhsIdx j q 1).val = (q ⟨0, by decide⟩).val :=
  Dav.lhsIdx_val_of_single rfl j q
theorem outR_key (j : S512x64.Idx) (q : Dav.contr.Idx) : (Dav.rhsIdx j q 0).val = (q ⟨0, by decide⟩).val :=
  Dav.rhsIdx_val_of_single rfl j q
theorem outR_feat (j : S512x64.Idx) (q : Dav.contr.Idx) : (Dav.rhsIdx j q 1).val = (j 1).val := by
  unfold DotDims.rhsIdx
  rw [dif_neg (show ¬(1 : Fin S2048x64.rank) ∈ Dav.rhsBatch by decide),
    dif_pos (show (1 : Fin S2048x64.rank) ∈ Dav.rhsNonContracting by decide)]
  rfl

/-- The left operand index of output `(r, d)` at key `l` is `(r, l)`. -/
theorem outL (r : Fin 512) (d : Fin 64) (l : Fin 2048) :
    Dav.lhsIdx (ix2 r d) ((contrEquiv1 Dav 2048 rfl rfl).symm l) = ix2 r l := by
  have hk := contrEquiv1_symm_val Dav 2048 rfl rfl l
  exact funext fun a => Fin.ext (by
    match a with
    | ⟨0, _⟩ => exact outL_row _ _
    | ⟨1, _⟩ => exact (outL_key _ _).trans hk)

/-- The right operand index of output `(r, d)` at key `l` is `(l, d)`. -/
theorem outR (r : Fin 512) (d : Fin 64) (l : Fin 2048) :
    Dav.rhsIdx (ix2 r d) ((contrEquiv1 Dav 2048 rfl rfl).symm l) = ix2 l d := by
  have hk := contrEquiv1_symm_val Dav 2048 rfl rfl l
  exact funext fun a => Fin.ext (by
    match a with
    | ⟨0, _⟩ => exact (outR_key _ _).trans hk
    | ⟨1, _⟩ => exact outR_feat _ _)

/-- The output of query row `r` at feature `d`: the sum over the keys of attention weight times value. -/
theorem out_apply (a : FVec Ideal S512x2048 .bf16) (v : FVec Ideal S2048x64 .bf16) (r : Fin 512) (d : Fin 64) :
    matmul dot_S512x2048_S2048x64_S512x64_1_0_0_1_n_n none a v (constant S512x64 .f32 0x00000000#32) (ix2 r d)
      = ∑ l : Fin 2048, a (ix2 r l) * v (ix2 l d) :=
  (Ideal.matmul_constant_zero_apply _ none a v (ix2 r d)).trans
    (Cert.LibDot.sum_contr_eq Dav 2048 rfl rfl a v (ix2 r d) (fun l => ix2 r l) (fun l => ix2 l d)
      (outL r d) (outR r d))

/-! ## A row's maximum and a row's sum -/

/-- The source index over row `r` with key coordinate `k` is `(r, k)`. -/
theorem lift_row (h : S512x2048.Reduces [1] S512) (r : Fin 512) (k : Fin (S512x2048.size 1)) :
    h.lift (ix1 r) k = ix2 r (⟨k.val, k.isLt⟩ : Fin 2048) := by
  funext ax; apply Fin.ext
  match ax with
  | ⟨0, _⟩ => rfl
  | ⟨1, _⟩ => rfl

/-- The maximum of row `r`, folded from the value of the initial word over the keys. -/
theorem rowMax_apply (z : FVec Ideal S512x2048 .f32) (h : S512x2048.Reduces [1] S512) (hφ : FKind.Formats .f32)
    (hacc : @Eq (BitVec (FTy.bits .f32)) 0xFF800000#32 0xFF800000#32) (r : Fin 512) :
    multiReduction .maximumf [1] S512 z 0xFF800000#32 h hφ hacc (ix1 r)
      = rmax (Ideal.ofBits .f32 0xFF800000#32) (fun l : Fin 2048 => z (ix2 r l)) :=
  (Ideal.multiReduction_maximumf_single z 0xFF800000#32 h hφ hacc (ix1 r)).trans
    (congrArg (fun f => Finset.fold max (Ideal.ofBits .f32 0xFF800000#32) f (Finset.univ : Finset (Fin 2048)))
      (funext fun k => congrArg z (lift_row h r k)))

/-- The sum of row `r` over the keys. -/
theorem rowSum_apply (z : FVec Ideal S512x2048 .f32) (h : S512x2048.Reduces [1] S512) (hφ : FKind.Formats .f32)
    (hacc : @Eq (BitVec (FTy.bits .f32)) 0x00000000#32 0x00000000#32) (r : Fin 512) :
    multiReduction .add [1] S512 z 0x00000000#32 h hφ hacc (ix1 r) = ∑ l : Fin 2048, z (ix2 r l) :=
  (Ideal.multiReduction_add_single z 0x00000000#32 h hφ hacc (ix1 r)).trans
    (Finset.sum_congr rfl fun k _ => congrArg z (lift_row h r k))

end Cert.KernelIdeal.Ops

end
-- ==== Proof.LibLayout.lean ====
/-
  Layout operations of small shapes read at an index, in the forms a row-wise normalisation needs: a vector made a
  column and a column spread over the columns of a matrix (the two halves of a `keepdims` reduction's broadcast), a
  row vector made a one-row matrix and spread over the rows, and a scalar spread over any shape. Each says which
  operand entry the result reads at `(p, c)`.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape (`broadcast_in_dim` with no axis) reads the scalar everywhere. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector `[b]` made the one row of `[1, b]` (`broadcast_in_dim` on axis 1) reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` spread over `a` rows (`broadcast_in_dim` on axes 0, 1) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` (`broadcast_in_dim` on axis 0) reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` spread over `b` columns (`broadcast_in_dim` on axes 0, 1) reads, at `(p, c)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.KernelRow.lean ====
/-
  What the kernel body computes from its blocks, entry by entry: the attention tile of the 512 query rows of a block
  against all 2048 keys is, at row `r` and key `j`, the row law's "sum first" arrangement over row `r`'s masked scores;
  the output tile at row `r` and feature `d` is that attention row against column `d` of the value block.
-/
import proofs.«180524_j31035433681575_2_alg».proof.Proof.Gen.KernelIdeal.Skeleton
import proofs.«180524_j31035433681575_2_alg».proof.Proof.AttnSpec
import proofs.«180524_j31035433681575_2_alg».proof.Proof.KernelOps
import proofs.«180524_j31035433681575_2_alg».proof.Proof.LibLayout
import Idealize.ShloMosaic.Lib.ValueIdx
import Idealize.ShloMosaic.Lib.ValueLayout
import Idealize.ShloMosaic.Lib.Pipeline.Value

set_option pp.maxSteps 20000
set_option pp.deepTerms false

noncomputable section

namespace Cert.KernelIdeal.Row

open Cert.KernelIdeal Cert.KernelIdeal.Gen Cert.KernelIdeal.Ops Idealize.ShloMosaic Idealize.ShloMosaic.ValueIdx
open Cert.Attn Cert.LibMaskedSoftmax Cert.LibSoftmax Cert.LibLayout
open scoped BigOperators

/-- The exponential of a vector, read at an index. -/
theorem exp_apply {s : Shape} {φ : FTy} (x : FVec Ideal s φ) (i : s.Idx) : exp x i = Ideal.exp (x i) := rfl

/-- A signed 32-bit integer read as a float is that integer, exactly. -/
theorem sitofp_val (b : BitVec 32) : FloatOps.sitofp (F := Ideal) .f32 b = (((b.toInt : ℝ)) : EReal) := rfl

/-- The attention tile at query row `r` of the block and key `j`. -/
theorem attnTile_apply (P0 : Vec Ideal S1x512x64 .f32) (P1 : Vec Ideal S1x2048x64 .f32) (P2 : Vec Ideal S1x512x2048 .i32)
    (r : Fin 512) (j : Fin 2048) :
    k0_pay3 (F := Ideal) P0 P1 P2 (ix2 r j)
      = attnRow (Ideal.ofBits .f32 0xFF800000#32) (Ideal.ofBits .f32 0x3F800000#32) (Ideal.ofBits .f32 0x29E12E13#32)
          (Ideal.ofBits .f32 0x3E000000#32)
          (fun d => P0 (ix3 (0 : Fin 1) r d)) (fun l d => P1 (ix3 (0 : Fin 1) l d))
          (fun l => (((P2 (ix3 (0 : Fin 1) r l) : BitVec 32).toInt : ℝ) : EReal)) j := by
  unfold k0_pay3
  -- the pointwise operations and the layout steps, at `(r, j)`
  simp only [exp_apply, mulf_apply, subf_apply, addf_apply, divf_apply, broadcast_apply, truncf_apply, sitofp_apply,
    broadcastTo_a1_ab_apply, shapeCast_a_a1_apply, scores_apply, shapeCast_1ab_ab_apply, Ideal.ofBits_def, sitofp_val]
  -- the two row sums, then their summands at `(r, l)`
  rw [rowSum_apply, rowSum_apply]
  simp only [exp_apply, mulf_apply, subf_apply, addf_apply, divf_apply, broadcast_apply, truncf_apply, sitofp_apply,
    broadcastTo_a1_ab_apply, shapeCast_a_a1_apply, scores_apply, shapeCast_1ab_ab_apply, Ideal.ofBits_def, sitofp_val]
  -- the row maximum (one term, wherever it stands), then its entries at `(r, l)`
  rw [rowMax_apply]
  simp only [exp_apply, mulf_apply, subf_apply, addf_apply, divf_apply, broadcast_apply, truncf_apply, sitofp_apply,
    broadcastTo_a1_ab_apply, shapeCast_a_a1_apply, scores_apply, shapeCast_1ab_ab_apply, Ideal.ofBits_def, sitofp_val]
  simp only [attnRow, sumFirst, xrow]
  rfl

/-- The output tile at query row `r` of the block and feature `d`: the attention tile's row `r` against column `d` of
    the value block. -/
theorem outTile_apply (Pv : Vec Ideal S1x2048x64 .f32) (A : FVec Ideal S512x2048 .f32) (u : Fin 1) (r : Fin 512)
    (d : Fin 64) :
    k0_pay1 (F := Ideal) (k0_pay2 Pv) A (ix3 u r d) = ∑ l : Fin 2048, A (ix2 r l) * Pv (ix3 (0 : Fin 1) l d) := by
  unfold k0_pay1 k0_pay2
  simp only [shapeCast_ab_1ab_apply, out_apply, truncf_apply, shapeCast_1ab_ab_apply]

end Cert.KernelIdeal.Row

end
-- ==== Proof.Blocks.lean ====
/-
  From blocks to arrays. The grid has a point per batch `b` and per tile `qi` of 512 query rows; at that point the kernel
  reads rows `512·qi … 512·qi + 511` of batch `b` of the queries and of the mask and all of batch `b` of the keys and the
  values, and writes the same rows of batch `b` of the two results. Entry `(0, r', ·)` of a block is row `R = 512·qi + r'`
  of batch `B = b` of its array, so what a point writes back is the block of ONE function of the argument arrays (the
  attention array, the output array), and the 128 blocks tile each result array.
-/
import proofs.«180524_j31035433681575_2_alg».proof.Proof.Gen.KernelIdeal.Value
import proofs.«180524_j31035433681575_2_alg».proof.Proof.KernelRow
import Idealize.ShloMosaic.Lib.Pipeline.Value
import Idealize.ShloMosaic.Lib.ValueIdx
import Idealize.ShloMosaic.Lib.ValueLayout

set_option pp.maxSteps 20000
set_option pp.deepTerms false
set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Attn Cert.KernelIdeal.Row
open Idealize.ShloMosaic.Pipeline (Dat)
open scoped BigOperators

variable (m : (ℓ : Loc nD τ sig) → Buf (Elt Ideal) ℓ) (ρ : Dev nD → PrngReg)

theorem hz3 : (![0, 0, 0] : Fin 3 → Nat) = fun _ => 0 := funext fun a => by fin_cases a <;> rfl

/-- The printed index maps, decided over the 128 grid points: the query, mask and output windows move with the attention
    window; the key and value windows follow its batch only; the batch index is below 32 and the tile index below 4. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3)
    ∧ win0_3.index t (2 : Fin 3) = 0
    ∧ win0_4.index t (0 : Fin 3) = win0_5.index t (0 : Fin 3) ∧ win0_4.index t (1 : Fin 3) = win0_5.index t (1 : Fin 3)
    ∧ win0_4.index t (2 : Fin 3) = 0
    ∧ win0_5.index t (0 : Fin 3) < 32 ∧ win0_5.index t (1 : Fin 3) < 4 ∧ win0_5.index t (2 : Fin 3) = 0 :=
  (by decide +kernel : ∀ t : Fin grid0.N, _)

/-- Every batch and tile is some point's. -/
theorem idx_onto : ∀ (q0 : Fin 32) (q1 : Fin 4), ∃ t : Fin cfg0.N, win0_5.index t = ![q0.val, q1.val, 0] :=
  (by decide +kernel : ∀ (q0 : Fin 32) (q1 : Fin 4), ∃ t : Fin grid0.N, win0_5.index t = ![q0.val, q1.val, 0])

/-! ## The input blocks, entry by entry -/

/-- The query block at point `t`: entry `(u, r', d)` is the query array at `(B, R, d)`. -/
theorem qblk_apply (c : Dev nD) (t : Fin cfg0.N) (u : Fin 1) (r' : Fin 512) (d : Fin 64) (B : Fin 32) (R : Fin 2048)
    (hB : B.val = win0_5.index t (0 : Fin 3)) (hR : R.val = win0_5.index t (1 : Fin 3) * 512 + r'.val) :
    (iblk m c 0 t : Vec Ideal S1x512x64 .f32) (ix3 u r' d)
      = (V m c main_arg0 : S32x2048x64.Idx → EReal) (ix3 B R d) := by
  obtain ⟨e0, e1, e2, -⟩ := idx_facts t
  unfold iblk
  rw [View.read_apply]
  show V m c main_arg0 _ = V m c main_arg0 _
  congr 1
  funext a; apply Fin.ext
  match a with
  | ⟨0, _⟩ => show win0_0.index t (0 : Fin 3) * 1 + 1 * u.val = B.val; have := u.isLt; omega
  | ⟨1, _⟩ => show win0_0.index t (1 : Fin 3) * 512 + 1 * r'.val = R.val; omega
  | ⟨2, _⟩ => show win0_0.index t (2 : Fin 3) * 64 + 1 * d.val = d.val; omega

/-- The key block at point `t`: entry `(u, l, d)` is the key array at `(B, l, d)`. -/
theorem kblk_apply (c : Dev nD) (t : Fin cfg0.N) (u : Fin 1) (l : Fin 2048) (d : Fin 64) (B : Fin 32)
    (hB : B.val = win0_5.index t (0 : Fin 3)) :
    (iblk m c 1 t : Vec Ideal S1x2048x64 .f32) (ix3 u l d)
      = (V m c main_arg1 : S32x2048x64.Idx → EReal) (ix3 B l d) := by
  obtain ⟨-, -, -, e0, e1, e2, -⟩ := idx_facts t
  unfold iblk
  rw [View.read_apply]
  show V m c main_arg1 _ = V m c main_arg1 _
  congr 1
  funext a; apply Fin.ext
  match a with
  | ⟨0, _⟩ => show win0_1.index t (0 : Fin 3) * 1 + 1 * u.val = B.val; have := u.isLt; omega
  | ⟨1, _⟩ => show win0_1.index t (1 : Fin 3) * 2048 + 1 * l.val = l.val; omega
  | ⟨2, _⟩ => show win0_1.index t (2 : Fin 3) * 64 + 1 * d.val = d.val; omega

/-- The value block at point `t`: entry `(u, l, d)` is the value array at `(B, l, d)`. -/
theorem vblk_apply (c : Dev nD) (t : Fin cfg0.N) (u : Fin 1) (l : Fin 2048) (d : Fin 64) (B : Fin 32)
    (hB : B.val = win0_5.index t (0 : Fin 3)) :
    (iblk m c 2 t : Vec Ideal S1x2048x64 .f32) (ix3 u l d)
      = (V m c main_arg2 : S32x2048x64.Idx → EReal) (ix3 B l d) := by
  obtain ⟨-, -, -, -, -, -, e0, e1, e2, -⟩ := idx_facts t
  unfold iblk
  rw [View.read_apply]
  show V m c main_arg2 _ = V m c main_arg2 _
  congr 1
  funext a; apply Fin.ext
  match a with
  | ⟨0, _⟩ => show win0_2.index t (0 : Fin 3) * 1 + 1 * u.val = B.val; have := u.isLt; omega
  | ⟨1, _⟩ => show win0_2.index t (1 : Fin 3) * 2048 + 1 * l.val = l.val; omega
  | ⟨2, _⟩ => show win0_2.index t (2 : Fin 3) * 64 + 1 * d.val = d.val; omega

/-- The mask block at point `t`: entry `(u, r', l)` is the mask array at `(B, R, l)`. -/
theorem mblk_apply (c : Dev nD) (t : Fin cfg0.N) (u : Fin 1) (r' : Fin 512) (l : Fin 2048) (B : Fin 32) (R : Fin 2048)
    (hB : B.val = win0_5.index t (0 : Fin 3)) (hR : R.val = win0_5.index t (1 : Fin 3) * 512 + r'.val) :
    (iblk m c 3 t : Vec Ideal S1x512x2048 .i32) (ix3 u r' l)
      = (V m c main_arg3 : S32x2048x2048.Idx → BitVec 32) (ix3 B R l) := by
  obtain ⟨-, -, -, -, -, -, -, -, -, e0, e1, e2, -⟩ := idx_facts t
  unfold iblk
  rw [View.read_apply]
  show V m c main_arg3 _ = V m c main_arg3 _
  congr 1
  funext a; apply Fin.ext
  match a with
  | ⟨0, _⟩ => show win0_3.index t (0 : Fin 3) * 1 + 1 * u.val = B.val; have := u.isLt; omega
  | ⟨1, _⟩ => show win0_3.index t (1 : Fin 3) * 512 + 1 * r'.val = R.val; omega
  | ⟨2, _⟩ => show win0_3.index t (2 : Fin 3) * 2048 + 1 * l.val = l.val; omega

/-! ## The attention tile of a point is its rows of the attention array -/

/-- The attention tile at point `t`, row `r'`, key `l'`: the attention array at `(B, R, l')`. -/
theorem tile_at (c : Dev nD) (t : Fin cfg0.N) (r' : Fin 512) (l' : Fin 2048) (B : Fin 32) (R : Fin 2048)
    (hB : B.val = win0_5.index t (0 : Fin 3)) (hR : R.val = win0_5.index t (1 : Fin 3) * 512 + r'.val) :
    k0_pay3 (F := Ideal) (iblk m c 0 t) (iblk m c 1 t) (iblk m c 3 t) (ix2 r' l')
      = attnOf (V m c main_arg0) (V m c main_arg1) (V m c main_arg3) (ix3 B R l') := by
  refine (attnTile_apply (iblk m c 0 t) (iblk m c 1 t) (iblk m c 3 t) r' l').trans ?_
  rw [attnOf_ix3]
  unfold attnAt maskVal
  have hq : (fun d : Fin 64 => (iblk m c 0 t : Vec Ideal S1x512x64 .f32) (ix3 (0 : Fin 1) r' d))
      = fun d => (V m c main_arg0 : S32x2048x64.Idx → EReal) (ix3 B R d) :=
    funext fun d => qblk_apply m c t 0 r' d B R hB hR
  have hk : (fun (l : Fin 2048) (d : Fin 64) => (iblk m c 1 t : Vec Ideal S1x2048x64 .f32) (ix3 (0 : Fin 1) l d))
      = fun l d => (V m c main_arg1 : S32x2048x64.Idx → EReal) (ix3 B l d) :=
    funext fun l => funext fun d => kblk_apply m c t 0 l d B hB
  have hm : (fun l : Fin 2048 => ((((iblk m c 3 t : Vec Ideal S1x512x2048 .i32) (ix3 (0 : Fin 1) r' l) : BitVec 32).toInt : ℝ) : EReal))
      = fun l => ((((V m c main_arg3 : S32x2048x2048.Idx → BitVec 32) (ix3 B R l)).toInt : ℝ) : EReal) :=
    funext fun l => by rw [mblk_apply m c t 0 r' l B R hB hR]
  rw [hq, hk, hm]

/-! ## What a point writes back is its block of the result arrays -/

/-- The attention block at point `t`, entry by entry: the attention array at the array index under the entry. -/
theorem attn_entry (c : Dev nD) (t : Fin cfg0.N) (j : S1x512x2048.Idx) :
    k0_pay4 (F := Ideal) (iblk m c 0 t) (iblk m c 1 t) (iblk m c 3 t) j
      = attnOf (V m c main_arg0) (V m c main_arg1) (V m c main_arg3) (((cfg0.win 5).blk t).view.emb j) := by
  obtain ⟨u, r', l', rfl⟩ : ∃ (u : Fin 1) (r' : Fin 512) (l' : Fin 2048), j = ix3 u r' l' := ⟨j 0, j 1, j 2, eq_ix3 j⟩
  obtain ⟨-, -, -, -, -, -, -, -, -, -, -, -, -, -, -, b0, b1, b2⟩ := idx_facts t
  have hemb : ((cfg0.win 5).blk t).view.emb (ix3 u r' l')
      = ix3 (⟨win0_5.index t (0 : Fin 3), b0⟩ : Fin 32)
          (⟨win0_5.index t (1 : Fin 3) * 512 + r'.val, by have := r'.isLt; omega⟩ : Fin 2048) l' := by
    funext a; apply Fin.ext
    match a with
    | ⟨0, _⟩ => show win0_5.index t (0 : Fin 3) * 1 + 1 * u.val = win0_5.index t (0 : Fin 3); have := u.isLt; omega
    | ⟨1, _⟩ => show win0_5.index t (1 : Fin 3) * 512 + 1 * r'.val = win0_5.index t (1 : Fin 3) * 512 + r'.val; omega
    | ⟨2, _⟩ => show win0_5.index t (2 : Fin 3) * 2048 + 1 * l'.val = l'.val; omega
  rw [hemb]
  refine Eq.trans ?_ (tile_at m c t r' l' _ _ rfl rfl)
  exact (congrFun (Value.lay5_0_eq (iblk m c 0 t) (iblk m c 1 t) (iblk m c 3 t)) (ix3 u r' l')).trans
    (shapeCast_ab_1ab_apply (k0_pay3 (F := Ideal) (iblk m c 0 t) (iblk m c 1 t) (iblk m c 3 t))
      shapeCasts_S512x2048_S1x512x2048 u r' l')

/-- WHAT POINT `t` WRITES BACK to the attention array is block `t` of the attention function of the argument arrays. -/
theorem flushed5_eq (c : Dev nD) (t : Fin cfg0.N) :
    (dats m 0 c).flushed 5 t
      = ((cfg0.win 5).blk t).view.read (Elt Ideal) (attnOf (V m c main_arg0) (V m c main_arg1) (V m c main_arg3)) := by
  rw [Value.flushed5]
  unfold out0_5
  rw [View.canon_unit_zero hz3]
  simp only [View.ld_unit_zero (S := S1x512x64) hz3, View.ld_unit_zero (S := S1x2048x64) hz3,
    View.ld_unit_zero (S := S1x512x2048) hz3]
  funext j
  exact attn_entry m c t j

/-- The output block at point `t`, entry by entry: the output array at the array index under the entry. -/
theorem out_entry (c : Dev nD) (t : Fin cfg0.N) (j : S1x512x64.Idx) :
    k0_pay1 (F := Ideal) (k0_pay2 (iblk m c 2 t)) (k0_pay3 (iblk m c 0 t) (iblk m c 1 t) (iblk m c 3 t)) j
      = outOf (V m c main_arg0) (V m c main_arg1) (V m c main_arg2) (V m c main_arg3)
          (((cfg0.win 4).blk t).view.emb j) := by
  obtain ⟨u, r', d, rfl⟩ : ∃ (u : Fin 1) (r' : Fin 512) (d : Fin 64), j = ix3 u r' d := ⟨j 0, j 1, j 2, eq_ix3 j⟩
  obtain ⟨-, -, -, -, -, -, -, -, -, -, -, -, e0, e1, e2, b0, b1, b2⟩ := idx_facts t
  have hemb : ((cfg0.win 4).blk t).view.emb (ix3 u r' d)
      = ix3 (⟨win0_5.index t (0 : Fin 3), b0⟩ : Fin 32)
          (⟨win0_5.index t (1 : Fin 3) * 512 + r'.val, by have := r'.isLt; omega⟩ : Fin 2048) d := by
    funext a; apply Fin.ext
    match a with
    | ⟨0, _⟩ => show win0_4.index t (0 : Fin 3) * 1 + 1 * u.val = win0_5.index t (0 : Fin 3); have := u.isLt; omega
    | ⟨1, _⟩ => show win0_4.index t (1 : Fin 3) * 512 + 1 * r'.val = win0_5.index t (1 : Fin 3) * 512 + r'.val; omega
    | ⟨2, _⟩ => show win0_4.index t (2 : Fin 3) * 64 + 1 * d.val = d.val; omega
  rw [hemb, outOf_ix3]
  refine (outTile_apply (iblk m c 2 t) (k0_pay3 (iblk m c 0 t) (iblk m c 1 t) (iblk m c 3 t)) u r' d).trans ?_
  exact Finset.sum_congr rfl fun l _ =>
    congrArg₂ (· * ·) (tile_at m c t r' l _ _ rfl rfl) (vblk_apply m c t 0 l d _ rfl)

/-- WHAT POINT `t` WRITES BACK to the output array is block `t` of the output function of the argument arrays. -/
theorem flushed4_eq (c : Dev nD) (t : Fin cfg0.N) :
    (dats m 0 c).flushed 4 t
      = ((cfg0.win 4).blk t).view.read (Elt Ideal)
          (outOf (V m c main_arg0) (V m c main_arg1) (V m c main_arg2) (V m c main_arg3)) := by
  rw [Value.flushed4]
  unfold out0_4
  rw [View.canon_unit_zero hz3]
  simp only [View.ld_unit_zero (S := S1x512x64) hz3, View.ld_unit_zero (S := S1x2048x64) hz3,
    View.ld_unit_zero (S := S1x512x2048) hz3]
  funext j
  exact out_entry m c t j

/-! ## The blocks tile the result arrays -/

/-- An index of the attention array is in point `t`'s block iff each coordinate is in the block's range on its axis. -/
theorem mem_blk5 (t : Fin cfg0.N) (i : S32x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v0_1).slice (win0_5.rect t)).set ↔ _
  rw [View.set_slice_whole, Rect.mem_set_unit]
  exact Iff.rfl

/-- The same for the output array. -/
theorem mem_blk4 (t : Fin cfg0.N) (i : S32x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v0_0).slice (win0_4.rect t)).set ↔ _
  rw [View.set_slice_whole, Rect.mem_set_unit]
  exact Iff.rfl

/-- Every index of the attention array is in the block of the point of its batch and of its row's tile. -/
theorem cover5 (i : S32x2048x2048.Idx) :
    ∃ t : Fin cfg0.N, (cfg0.win 5).flush t = true ∧ i ∈ ((cfg0.win 5).blk t).view.set := by
  have hi0 : (i 0).val < 32 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- The same for the output array. -/
theorem cover4 (i : S32x2048x64.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  obtain ⟨-, -, -, -, -, -, -, -, -, -, -, -, e0, e1, e2, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- THE ATTENTION ARRAY after the run: the attention function of the argument arrays. -/
theorem final5 (c : Dev nD) :
    (dats m 0 c).arrAt 5 cfg0.N = attnOf (V m c main_arg0) (V m c main_arg1) (V m c main_arg3) :=
  (dats m 0 c).arrAt_eq_of_cover 5 _ (fun t _ => flushed5_eq m c t) cover5

/-- THE OUTPUT ARRAY after the run: the output function of the argument arrays. -/
theorem final4 (c : Dev nD) :
    (dats m 0 c).arrAt 4 cfg0.N = outOf (V m c main_arg0) (V m c main_arg1) (V m c main_arg2) (V m c main_arg3) :=
  (dats m 0 c).arrAt_eq_of_cover 4 _ (fun t _ => flushed4_eq m c t) cover4

/-! ## The run, read -/

/-- The kernel's run with each result array at its function of the arguments, the arguments unchanged. -/
theorem run : θ_run defs (onTc (τ := τ) (main (F := Ideal))) ⟨m, fun _ => 0, ρ⟩ fun r => ∀ c : Dev nD,
      r.2.mem ((c : Thread nD τ).loc main_v0_0)
        = outOf (m ((c : Thread nD τ).loc main_arg0)) (m ((c : Thread nD τ).loc main_arg1))
            (m ((c : Thread nD τ).loc main_arg2)) (m ((c : Thread nD τ).loc main_arg3))
      ∧ r.2.mem ((c : Thread nD τ).loc main_v0_1)
        = attnOf (m ((c : Thread nD τ).loc main_arg0)) (m ((c : Thread nD τ).loc main_arg1))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Blocks

end
-- ==== Proof.LibScaledDot.lean ====
/-
  A scale folded into one factor of a dot product, on the extended reals (general: any length, built on the coercion of
  finite sums of the softmax file beside it).

  One program scales every entry of the left factor by `1 / c` before the products, `∑ (q d · (1/c)) · k d`; the other
  divides the finished sum, `(∑ q d · k d) / c`. When every entry is a real number both are the real `(∑ q d · k d) / c`:
  the factor moves across the finite sum. (At an infinite entry the distributive law fails; finiteness is used.)
  Also: such a sum of products of finite entries, with any real scale, is finite.
-/
import proofs.«180524_j31035433681575_2_alg».proof.Proof.LibSoftmax
import Mathlib.Tactic.Ring

noncomputable section

namespace Cert.LibScaledDot

open Idealize.ShloMosaic Cert.LibSoftmax
open scoped BigOperators

/-- A row of finite extended reals is a row of reals. -/
theorem exists_reals {ι : Type*} (a : ι → EReal) (ha : ∀ i, a i ≠ ⊤ ∧ a i ≠ ⊥) :
    ∃ a' : ι → ℝ, a = fun i => (a' i : EReal) :=
  ⟨fun i => (a i).toReal, funext fun i => (EReal.coe_toReal (ha i).1 (ha i).2).symm⟩

/-- THE LAW: scaling the left factor's entries by `1 / c` is dividing the dot product by `c`. -/
theorem sum_scaled_eq_div {n : ℕ} (q k : Fin n → EReal) (hq : ∀ d, q d ≠ ⊤ ∧ q d ≠ ⊥) (hk : ∀ d, k d ≠ ⊤ ∧ k d ≠ ⊥)
    (c : ℝ) (hc : c ≠ 0) :
    ∑ d, (q d * ((1 / c : ℝ) : EReal)) * k d = Ideal.div (∑ d, q d * k d) (c : EReal) := by
  obtain ⟨q', rfl⟩ := exists_reals q hq
  obtain ⟨k', rfl⟩ := exists_reals k hk
  rw [Ideal.div_coe hc]
  simp only [← EReal.coe_mul]
  rw [← coe_sum, ← coe_sum, ← EReal.coe_mul, EReal.coe_eq_coe_iff, Finset.sum_mul]
  exact Finset.sum_congr rfl fun d _ => by ring

/-- A dot product of finite entries, the left ones scaled by a real, is finite. -/
theorem sum_scaled_finite {n : ℕ} (q k : Fin n → EReal) (hq : ∀ d, q d ≠ ⊤ ∧ q d ≠ ⊥) (hk : ∀ d, k d ≠ ⊤ ∧ k d ≠ ⊥)
    (s : ℝ) : (∑ d, (q d * (s : EReal)) * k d) ≠ ⊤ ∧ (∑ d, (q d * (s : EReal)) * k d) ≠ ⊥ := by
  obtain ⟨q', rfl⟩ := exists_reals q hq
  obtain ⟨k', rfl⟩ := exists_reals k hk
  simp only [← EReal.coe_mul]
  rw [← coe_sum]
  exact ⟨EReal.coe_ne_top _, EReal.coe_ne_bot _⟩

end Cert.LibScaledDot

end
-- ==== Proof.Literals.lean ====
/-
  The float constants the two programs spell that the proof has to read as numbers, as the extended reals their binary32
  patterns denote: the scale `0.125` the kernel multiplies the queries by, the temperature `8.0` the reference divides the
  scores by, and the small `ε` both add to the renormalising denominator (a positive real; only its sign is used).
  The patterns of `-∞`, `0.0` and `1.0` are read in the softmax file and the library.
-/
import Idealize.ShloMosaic.PureOps.Ideal

noncomputable section

namespace Cert.Literals

open Idealize.ShloMosaic

/-- `0.125` denotes the real `1/8`. -/
theorem ofBits_eighth : Ideal.ofBits .f32 0x3E000000#32 = ((1 / 8 : ℝ) : EReal) := by
  simp [Ideal.ofBits, Ideal.ieee, -EReal.coe_mul]; norm_num

/-- `8.0` denotes the real `8`. -/
theorem ofBits_eight : Ideal.ofBits .f32 0x41000000#32 = ((8 : ℝ) : EReal) := by
  simp [Ideal.ofBits, Ideal.ieee, -EReal.coe_mul]; norm_num

/-- The value of the pattern `0x29E12E13` (the binary32 nearest `1e-13`): significand `2^23 + 6368787`, exponent `83 - 127 - 23`. -/
def eps : ℝ := 14757395 * (2 : ℝ) ^ (-67 : ℤ)

theorem eps_pos : 0 < eps := by unfold eps; positivity

/-- `ε` denotes that positive real. -/
theorem ofBits_eps : Ideal.ofBits .f32 0x29E12E13#32 = ((eps : ℝ) : EReal) := by
  unfold eps
  simp [Ideal.ofBits, Ideal.ieee, -EReal.coe_mul]

end Cert.Literals

end
-- ==== Proof.RefLaw.lean ====
/-
  The reference's arrangement of one query row, and that it is the kernel's.

  The reference divides the finished scores by the temperature `8` where the kernel scales the queries by `0.125`, takes
  a softmax of the masked scores, masks it again and divides by its own sum plus `ε` where the kernel multiplies the masked
  weights by one reciprocal per row. With every query and key entry a real number and every mask weight a real `≥ 0`
  the scores agree (the scale moves across the sum over the features) and the two arrangements of the row agree (the row
  law): both denominators are positive reals.
-/
import proofs.«180524_j31035433681575_2_alg».proof.Proof.AttnSpec
import proofs.«180524_j31035433681575_2_alg».proof.Proof.LibScaledDot
import proofs.«180524_j31035433681575_2_alg».proof.Proof.Literals
import Idealize.ShloMosaic.PureOps.Ideal.Laws

noncomputable section

namespace Cert.Attn

open Idealize.ShloMosaic Cert.LibMaskedSoftmax Cert.LibSoftmax Cert.LibScaledDot
open scoped BigOperators

/-- One query row's masked scores as the reference takes them: the finished score over `w8`, times the mask weight. -/
def xrowRef (w8 : EReal) (q : Fin 64 → EReal) (k : Fin 2048 → Fin 64 → EReal) (μ : Fin 2048 → EReal) (l : Fin 2048) : EReal :=
  Ideal.div (∑ d : Fin 64, q d * k l d) w8 * μ l

/-- One query row's attention weights as the reference takes them. -/
def attnRowRef (wb z wε w8 : EReal) (q : Fin 64 → EReal) (k : Fin 2048 → Fin 64 → EReal) (μ : Fin 2048 → EReal)
    (j : Fin 2048) : EReal :=
  normFirst wb z wε (xrowRef w8 q k μ) μ j

/-- The scores agree: dividing by `8.0` is scaling the query by `0.125`, on finite entries. -/
theorem xrowRef_eq (q : Fin 64 → EReal) (k : Fin 2048 → Fin 64 → EReal) (μ : Fin 2048 → EReal)
    (hq : ∀ d, q d ≠ ⊤ ∧ q d ≠ ⊥) (hk : ∀ l d, k l d ≠ ⊤ ∧ k l d ≠ ⊥) :
    xrowRef (Ideal.ofBits .f32 0x41000000#32) q k μ = xrow (Ideal.ofBits .f32 0x3E000000#32) q k μ := by
  funext l
  unfold xrowRef xrow
  rw [Cert.Literals.ofBits_eight, Cert.Literals.ofBits_eighth,
    sum_scaled_eq_div q (k l) hq (hk l) 8 (by norm_num)]

/-- A masked score of finite entries and a finite weight is finite. -/
theorem xrow_finite (s : ℝ) (q : Fin 64 → EReal) (k : Fin 2048 → Fin 64 → EReal) (μ : Fin 2048 → EReal)
    (hq : ∀ d, q d ≠ ⊤ ∧ q d ≠ ⊥) (hk : ∀ l d, k l d ≠ ⊤ ∧ k l d ≠ ⊥) (hμ : ∀ l, μ l ≠ ⊤ ∧ μ l ≠ ⊥) (l : Fin 2048) :
    xrow (s : EReal) q k μ l ≠ ⊤ ∧ xrow (s : EReal) q k μ l ≠ ⊥ := by
  unfold xrow
  obtain ⟨a, ha⟩ : ∃ a : ℝ, (∑ d : Fin 64, (q d * (s : EReal)) * k l d) = (a : EReal) :=
    ⟨_, (EReal.coe_toReal (sum_scaled_finite q (k l) hq (hk l) s).1 (sum_scaled_finite q (k l) hq (hk l) s).2).symm⟩
  obtain ⟨b, hb⟩ : ∃ b : ℝ, μ l = (b : EReal) := ⟨_, (EReal.coe_toReal (hμ l).1 (hμ l).2).symm⟩
  rw [ha, hb, ← EReal.coe_mul]
  exact ⟨EReal.coe_ne_top _, EReal.coe_ne_bot _⟩

/-- THE TWO ROWS AGREE, the words read as the numbers they denote. -/
theorem attnRowRef_eq (q : Fin 64 → EReal) (k : Fin 2048 → Fin 64 → EReal) (μ : Fin 2048 → EReal)
    (hq : ∀ d, q d ≠ ⊤ ∧ q d ≠ ⊥) (hk : ∀ l d, k l d ≠ ⊤ ∧ k l d ≠ ⊥) (hμ : ∀ l, μ l ≠ ⊤ ∧ 0 ≤ μ l) (j : Fin 2048) :
    attnRowRef (Ideal.ofBits .f32 0xFF800000#32) (Ideal.ofBits .f32 0x00000000#32) (Ideal.ofBits .f32 0x29E12E13#32)
        (Ideal.ofBits .f32 0x41000000#32) q k μ j
      = attnRow (Ideal.ofBits .f32 0xFF800000#32) (Ideal.ofBits .f32 0x3F800000#32) (Ideal.ofBits .f32 0x29E12E13#32)
        (Ideal.ofBits .f32 0x3E000000#32) q k μ j := by
  unfold attnRowRef attnRow
  rw [xrowRef_eq q k μ hq hk, ofBits_neg_inf, Ideal.ofBits_zero_f32, ofBits_one, Cert.Literals.ofBits_eps,
    Cert.Literals.ofBits_eighth]
  exact normFirst_eq_sumFirst (by norm_num) _ μ
    (xrow_finite (1 / 8) q k μ hq hk fun l => ⟨(hμ l).1, ne_bot_of_le_ne_bot EReal.zero_ne_bot (hμ l).2⟩)
    hμ Cert.Literals.eps Cert.Literals.eps_pos j

end Cert.Attn

end
-- ==== Proof.LibLanes.lean ====
/-
  Grouped lanes. An array of shape [a, b, c] is read as a rows of b groups of c lanes each. A reduction over the
  lane axis that keeps the axis (jnp's keepdims) leaves one entry per group, carried as a column of shape [a, b, 1]
  and spread back over the c lanes of its group. This file reads those layout steps at an index given by
  coordinates, and reads a lane minimum or maximum — a kernel's vector reduction and the host's reduce alike — as
  the fold of min or max, from the value of the initial word, over the lane coordinate of one group.
-/
import Idealize.ShloMosaic.Lib.Pipeline.Value
import Idealize.ShloMosaic.Lib.ValueIdx
import Idealize.ShloMosaic.PureOps.Ideal.Laws
import Idealize.ShloMosaic.PureOps.Reduce

noncomputable section

namespace Cert.Lanes

open Idealize.ShloMosaic Idealize.ShloMosaic.ValueIdx

variable {α : Type} {a b c : Nat}

/-! ## The per-group column: [a, b] → [a, b, 1] → [a, b, c] -/

/-- A matrix of per-group values cast to a column per group, read at (p, g, 0), is the matrix at (p, g). -/
theorem shapeCast_ab_ab1_apply (x : (⟨2, ![a, b]⟩ : Shape).Idx → α)
    (h : (⟨2, ![a, b]⟩ : Shape).ShapeCasts ⟨3, ![a, b, 1]⟩) (p : Fin a) (g : Fin b) :
    shapeCast ⟨3, ![a, b, 1]⟩ x h (ix3 p g (0 : Fin 1)) = x (ix2 p g) :=
  shapeCast_apply x h (ix3 p g (0 : Fin 1)) (ix2 p g) (by
    rw [Shape.rowMajor_val_two, Shape.rowMajor_val_three]
    show p.val * b + g.val = (p.val * b + g.val) * 1 + 0
    rw [Nat.mul_one, Nat.add_zero])

/-- A column per group spread over the group's lanes, read at (p, g, l), is the column's entry at (p, g, 0):
    every lane of a group sees its group's value. -/
theorem broadcastTo_ab1_abc_apply (x : (⟨3, ![a, b, 1]⟩ : Shape).Idx → α)
    (h : (⟨3, ![a, b, 1]⟩ : Shape).Broadcasts ⟨3, ![a, b, c]⟩) (p : Fin a) (g : Fin b) (l : Fin c) :
    broadcastTo ⟨3, ![a, b, c]⟩ x h (ix3 p g l) = x (ix3 p g (0 : Fin 1)) := by
  refine broadcastTo_apply x h (ix3 p g l) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ =>
    show (0 : Nat) = if (1 : Nat) = 1 then 0 else l.val
    rw [if_pos rfl]

/-! ## A group's lanes as a fold over the lane coordinate -/

/-- The minimum of group (p, g)'s lanes, folded from the value of the word `w`. -/
def laneMin (w : BitVec 32) (z : (⟨3, ![a, b, c]⟩ : Shape).Idx → EReal) (p : Fin a) (g : Fin b) : EReal :=
  (Finset.univ : Finset (Fin c)).fold min (Ideal.ofBits .f32 w) (fun l => z (ix3 p g l))

/-- The maximum of group (p, g)'s lanes, folded from the value of the word `w`. -/
def laneMax (w : BitVec 32) (z : (⟨3, ![a, b, c]⟩ : Shape).Idx → EReal) (p : Fin a) (g : Fin b) : EReal :=
  (Finset.univ : Finset (Fin c)).fold max (Ideal.ofBits .f32 w) (fun l => z (ix3 p g l))

/-- The source index over group (p, g) with lane coordinate `k` is (p, g, k). -/
theorem lift_lane (h : (⟨3, ![a, b, c]⟩ : Shape).Reduces [2] ⟨2, ![a, b]⟩) (p : Fin a) (g : Fin b)
    (k : Fin ((⟨3, ![a, b, c]⟩ : Shape).size 2)) :
    h.lift (ix2 p g) k = ix3 p g (⟨k.val, k.isLt⟩ : Fin c) := by
  funext ax; apply Fin.ext
  match ax with
  | ⟨0, _⟩ => rfl
  | ⟨1, _⟩ => rfl
  | ⟨2, _⟩ => rfl

/-- A kernel's lane minimum (a vector reduction over the last axis), read at group (p, g) on the extended reals. -/
theorem multiReduction_minimumf_lane (src : FVec Ideal ⟨3, ![a, b, c]⟩ .f32) (w : BitVec 32)
    (h : (⟨3, ![a, b, c]⟩ : Shape).Reduces [2] ⟨2, ![a, b]⟩) (hφ : FKind.Formats .f32)
    (hacc : w = FKind.minimumf.neutral .f32 hφ) (p : Fin a) (g : Fin b) :
    multiReduction .minimumf [2] ⟨2, ![a, b]⟩ src w h hφ hacc (ix2 p g) = laneMin w src p g := by
  rw [multiReduction_minimumf_eq_fold]
  refine (h.fold_filter_drop_single _ _ src (ix2 p g)).trans ?_
  exact congrArg (fun f => Finset.fold min (Ideal.ofBits .f32 w) f (Finset.univ : Finset (Fin c)))
    (funext fun k => congrArg src (lift_lane h p g k))

/-- A kernel's lane maximum, read at group (p, g) on the extended reals. -/
theorem multiReduction_maximumf_lane (src : FVec Ideal ⟨3, ![a, b, c]⟩ .f32) (w : BitVec 32)
    (h : (⟨3, ![a, b, c]⟩ : Shape).Reduces [2] ⟨2, ![a, b]⟩) (hφ : FKind.Formats .f32)
    (hacc : w = FKind.maximumf.neutral .f32 hφ) (p : Fin a) (g : Fin b) :
    multiReduction .maximumf [2] ⟨2, ![a, b]⟩ src w h hφ hacc (ix2 p g) = laneMax w src p g := by
  rw [multiReduction_maximumf_eq_fold]
  refine (h.fold_filter_drop_single _ _ src (ix2 p g)).trans ?_
  exact congrArg (fun f => Finset.fold max (Ideal.ofBits .f32 w) f (Finset.univ : Finset (Fin c)))
    (funext fun k => congrArg src (lift_lane h p g k))

/-- The host's lane minimum (a reduce with a minimum body over the last axis, from a scalar initial value holding
    the word `w`), read at group (p, g) on the extended reals: the same fold. -/
theorem hostReduce_minimumf_lane (x : FVec Ideal ⟨3, ![a, b, c]⟩ .f32) (w : BitVec 32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (p : Fin a) (g : Fin b) :
    Host.reduce FloatOps.minimumf x (constant (F := Ideal) (⟨0, ![]⟩ : Shape) .f32 w) h' hu (ix2 p g) = laneMin w x p g := by
  rw [Host.reduce_eq_fold_single FloatOps.minimumf x _ h' h hu]
  exact congrArg (fun f => Finset.fold min (Ideal.ofBits .f32 w) f (Finset.univ : Finset (Fin c)))
    (funext fun k => congrArg x (lift_lane h p g k))

/-- The host's lane maximum, read at group (p, g) on the extended reals. -/
theorem hostReduce_maximumf_lane (x : FVec Ideal ⟨3, ![a, b, c]⟩ .f32) (w : BitVec 32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (p : Fin a) (g : Fin b) :
    Host.reduce FloatOps.maximumf x (constant (F := Ideal) (⟨0, ![]⟩ : Shape) .f32 w) h' hu (ix2 p g) = laneMax w x p g := by
  rw [Host.reduce_eq_fold_single FloatOps.maximumf x _ h' h hu]
  exact congrArg (fun f => Finset.fold max (Ideal.ofBits .f32 w) f (Finset.univ : Finset (Fin c)))
    (funext fun k => congrArg x (lift_lane h p g k))

end Cert.Lanes

end
-- ==== Proof.RefRead.lean ====
/-
  What the reference computes, entry by entry: its attention result at batch `b`, query row `r`, key `j` is the row law's
  "normalise first" arrangement over row `(b, r)`'s masked scores, the finished score divided by the temperature; its output
  at `(b, r, d)` is that attention row against column `d` of batch `b`'s values.
-/
import proofs.«180524_j31035433681575_2_alg».proof.Proof.Gen.ReferenceIdeal.Read
import proofs.«180524_j31035433681575_2_alg».proof.Proof.RefLaw
import proofs.«180524_j31035433681575_2_alg».proof.Proof.LibLanes
import Idealize.ShloMosaic.Lib.ValueIdx

set_option pp.maxSteps 20000
set_option pp.deepTerms false

noncomputable section

namespace Cert.ReferenceIdeal.RefValue

open Cert.ReferenceIdeal Cert.ReferenceIdeal.Gen Cert.ReferenceIdeal.Read Idealize.ShloMosaic Idealize.ShloMosaic.ValueIdx
open Cert.Attn Cert.LibMaskedSoftmax Cert.LibSoftmax
open scoped BigOperators

/-- The maximum of row `(b, r)` of the masked scores, folded from the value of the initial word over the keys. -/
theorem rowMax_read (x0 x1 : (⟨S32x2048x64, .f32⟩ : BufTy).Contents (Elt Ideal))
    (x3 : (⟨S32x2048x2048, .i32⟩ : BufTy).Contents (Elt Ideal)) (b : Fin 32) (r : Fin 2048) :
    val_main_v5 (F := Ideal) x0 x1 x3 (ix2 b r)
      = rmax (Ideal.ofBits .f32 0xFF800000#32) (fun l : Fin 2048 => val_main_v4 (F := Ideal) x0 x1 x3 (ix3 b r l)) := by
  unfold val_main_v5 val_main_cst_0
  generalize val_main_v4 (F := Ideal) x0 x1 x3 = y
  exact Cert.Lanes.hostReduce_maximumf_lane y 0xFF800000#32 reducesTo_S32x2048x2048_S32x2048_d2 (by decide) h_S_ b r

/-! ## The composed index maps of the layout steps, in coordinates -/

theorem i21 (b : Fin 32) (r l : Fin 2048) : idx_main_v21 (ix3 b r l) = ix3 b r (0 : Fin 1) :=
  funext fun a => Fin.ext (by match a with | ⟨0, _⟩ => rfl | ⟨1, _⟩ => rfl | ⟨2, _⟩ => rfl)
theorem i18 (b : Fin 32) (r : Fin 2048) : idx_main_v18 (ix3 b r (0 : Fin 1)) = ix2 b r :=
  funext fun a => Fin.ext (by match a with | ⟨0, _⟩ => rfl | ⟨1, _⟩ => rfl)
theorem i17 (b : Fin 32) (r k : Fin 2048) : idx_main_v17 (ix2 b r) k = ix3 b r k :=
  funext fun a => Fin.ext (by match a with | ⟨0, _⟩ => rfl | ⟨1, _⟩ => rfl | ⟨2, _⟩ => rfl)
theorem i14 (b : Fin 32) (r l : Fin 2048) : idx_main_v14 (ix3 b r l) = ix3 b r (0 : Fin 1) :=
  funext fun a => Fin.ext (by match a with | ⟨0, _⟩ => rfl | ⟨1, _⟩ => rfl | ⟨2, _⟩ => rfl)
theorem i13 (b : Fin 32) (r : Fin 2048) : idx_main_v13 (ix3 b r (0 : Fin 1)) = ix2 b r :=
  funext fun a => Fin.ext (by match a with | ⟨0, _⟩ => rfl | ⟨1, _⟩ => rfl)
theorem i12 (b : Fin 32) (r k : Fin 2048) : idx_main_v12 (ix2 b r) k = ix3 b r k :=
  funext fun a => Fin.ext (by match a with | ⟨0, _⟩ => rfl | ⟨1, _⟩ => rfl | ⟨2, _⟩ => rfl)
theorem i9 (b : Fin 32) (r l : Fin 2048) : idx_main_v9 (ix3 b r l) = ix3 b r (0 : Fin 1) :=
  funext fun a => Fin.ext (by match a with | ⟨0, _⟩ => rfl | ⟨1, _⟩ => rfl | ⟨2, _⟩ => rfl)
theorem i8 (b : Fin 32) (r : Fin 2048) : idx_main_v8 (ix3 b r (0 : Fin 1)) = ix2 b r :=
  funext fun a => Fin.ext (by match a with | ⟨0, _⟩ => rfl | ⟨1, _⟩ => rfl)
theorem il (b : Fin 32) (r l : Fin 2048) (d : Fin 64) : lidx_main_v0 (ix3 b r l) d = ix3 b r d :=
  funext fun a => Fin.ext (by match a with | ⟨0, _⟩ => rfl | ⟨1, _⟩ => rfl | ⟨2, _⟩ => rfl)
theorem ir (b : Fin 32) (r l : Fin 2048) (d : Fin 64) : ridx_main_v0 (ix3 b r l) d = ix3 b l d :=
  funext fun a => Fin.ext (by match a with | ⟨0, _⟩ => rfl | ⟨1, _⟩ => rfl | ⟨2, _⟩ => rfl)

/-! ## Row `(b, r)` of the reference, stage by stage -/

section Row

variable (x0 x1 : (⟨S32x2048x64, .f32⟩ : BufTy).Contents (Elt Ideal))
  (x3 : (⟨S32x2048x2048, .i32⟩ : BufTy).Contents (Elt Ideal)) (b : Fin 32) (r : Fin 2048)

/-- The row's masked scores: the finished score over the temperature, times the mask weight. -/
def xs : Fin 2048 → EReal :=
  xrowRef (Ideal.ofBits .f32 0x41000000#32) (fun d => x0 (ix3 b r d)) (fun l d => x1 (ix3 b l d))
    (fun l => maskVal x3 (ix3 b r l))

/-- The row's maximum from `-∞`, joined once more with `-∞`. -/
def mx : EReal :=
  max (Ideal.ofBits .f32 0xFF800000#32) (rmax (Ideal.ofBits .f32 0xFF800000#32) (xs x0 x1 x3 b r))

/-- The exponentials of the shifted scores. -/
def es (l : Fin 2048) : EReal := Ideal.exp (xs x0 x1 x3 b r l - mx x0 x1 x3 b r)

/-- The softmax's denominator: the sum of the exponentials, from `0.0`. -/
def den : EReal := Ideal.ofBits .f32 0x00000000#32 + ∑ n : Fin 2048, es x0 x1 x3 b r n

/-- The softmax weights, masked again. -/
def sm (l : Fin 2048) : EReal := Ideal.div (es x0 x1 x3 b r l) (den x0 x1 x3 b r) * maskVal x3 (ix3 b r l)

/-- The renormalising denominator: the masked weights' sum, from `0.0`, plus `ε`. -/
def den2 : EReal :=
  (Ideal.ofBits .f32 0x00000000#32 + ∑ n : Fin 2048, sm x0 x1 x3 b r n) + Ideal.ofBits .f32 0x29E12E13#32

theorem score_read (l : Fin 2048) : val_main_v4 (F := Ideal) x0 x1 x3 (ix3 b r l) = xs x0 x1 x3 b r l := by
  rw [val_main_v4_apply, val_main_v3_apply, val_main_v2_apply, val_main_v1_apply, val_main_cst_apply, val_main_v0_apply]
  have hs : (∑ d : Fin 64, x0 (lidx_main_v0 (ix3 b r l) d) * x1 (ridx_main_v0 (ix3 b r l) d))
      = ∑ d : Fin 64, x0 (ix3 b r d) * x1 (ix3 b l d) :=
    Finset.sum_congr rfl fun d _ => by rw [il b r l d, ir b r l d]
  rw [hs]
  rfl

theorem max_read (l : Fin 2048) : val_main_v9 (F := Ideal) x0 x1 x3 (ix3 b r l) = mx x0 x1 x3 b r := by
  rw [val_main_v9_apply, i9, val_main_v8_apply, i8, val_main_v7_apply, val_main_v6_apply, val_main_cst_1_apply,
    rowMax_read,
    show (fun l : Fin 2048 => val_main_v4 (F := Ideal) x0 x1 x3 (ix3 b r l)) = xs x0 x1 x3 b r from
      funext fun l => score_read x0 x1 x3 b r l]
  rfl

theorem exp_read (l : Fin 2048) : val_main_v11 (F := Ideal) x0 x1 x3 (ix3 b r l) = es x0 x1 x3 b r l := by
  rw [val_main_v11_apply, val_main_v10_apply, score_read, max_read]
  rfl

theorem den_read (l : Fin 2048) : val_main_v14 (F := Ideal) x0 x1 x3 (ix3 b r l) = den x0 x1 x3 b r := by
  rw [val_main_v14_apply, i14, val_main_v13_apply, i13, val_main_v12_apply, val_main_cst_2_apply]
  exact congrArg (Ideal.ofBits .f32 0x00000000#32 + ·)
    (Finset.sum_congr rfl fun n _ => by rw [i12 b r n, exp_read])

theorem soft_read (l : Fin 2048) : val_main_v16 (F := Ideal) x0 x1 x3 (ix3 b r l) = sm x0 x1 x3 b r l := by
  rw [val_main_v16_apply, val_main_v15_apply, val_main_v3_apply, exp_read, den_read]
  rfl

theorem den2_read (l : Fin 2048) : val_main_v21 (F := Ideal) x0 x1 x3 (ix3 b r l) = den2 x0 x1 x3 b r := by
  rw [val_main_v21_apply, i21, val_main_v20_apply, val_main_v19_apply, val_main_cst_4_apply, val_main_v18_apply, i18,
    val_main_v17_apply, val_main_cst_3_apply]
  exact congrArg (· + Ideal.ofBits .f32 0x29E12E13#32)
    (congrArg (Ideal.ofBits .f32 0x00000000#32 + ·)
      (Finset.sum_congr rfl fun n _ => by rw [i17 b r n, soft_read]))

/-- The reference's attention result at `(b, r, j)`: the row law's "normalise first" arrangement of row `(b, r)`. -/
theorem attn_read (j : Fin 2048) :
    val_main_v22 (F := Ideal) x0 x1 x3 (ix3 b r j)
      = attnRowRef (Ideal.ofBits .f32 0xFF800000#32) (Ideal.ofBits .f32 0x00000000#32) (Ideal.ofBits .f32 0x29E12E13#32)
          (Ideal.ofBits .f32 0x41000000#32)
          (fun d => x0 (ix3 b r d)) (fun l d => x1 (ix3 b l d)) (fun l => maskVal x3 (ix3 b r l)) j := by
  rw [val_main_v22_apply, soft_read, den2_read]
  rfl

end Row

/-! ## The reference's two results are the attention array and the output array -/

/-- The reference's attention result, under the decoded precondition (query and key entries real numbers, mask entries
    `≥ 0`): the attention array. -/
theorem attn_ref (x0 x1 : (⟨S32x2048x64, .f32⟩ : BufTy).Contents (Elt Ideal))
    (x3 : (⟨S32x2048x2048, .i32⟩ : BufTy).Contents (Elt Ideal))
    (h0 : ∀ i, x0 i ≠ ⊤ ∧ x0 i ≠ ⊥) (h1 : ∀ i, x1 i ≠ ⊤ ∧ x1 i ≠ ⊥) (h3 : ∀ i, 0 ≤ (x3 i : BitVec 32).toInt) :
    val_main_v22 (F := Ideal) x0 x1 x3 = attnOf x0 x1 x3 := by
  funext i
  obtain ⟨b, r, j, rfl⟩ : ∃ (b : Fin 32) (r j : Fin 2048), i = ix3 b r j := ⟨i 0, i 1, i 2, eq_ix3 i⟩
  rw [attn_read, attnOf_ix3]
  unfold attnAt
  exact attnRowRef_eq _ _ _ (fun d => h0 _) (fun l d => h1 _)
    (fun l => ⟨EReal.coe_ne_top _, EReal.coe_nonneg.mpr (by exact_mod_cast h3 _)⟩) j

theorem lidx23 (b : Fin 32) (r : Fin 2048) (d : Fin 64) (l : Fin 2048) : lidx_main_v23 (ix3 b r d) l = ix3 b r l :=
  funext fun a => Fin.ext (by match a with | ⟨0, _⟩ => rfl | ⟨1, _⟩ => rfl | ⟨2, _⟩ => rfl)
theorem ridx23 (b : Fin 32) (r : Fin 2048) (d : Fin 64) (l : Fin 2048) : ridx_main_v23 (ix3 b r d) l = ix3 b l d :=
  funext fun a => Fin.ext (by match a with | ⟨0, _⟩ => rfl | ⟨1, _⟩ => rfl | ⟨2, _⟩ => rfl)

/-- The reference's output, under the same hypotheses: the attention array's row against the values' column. -/
theorem out_ref (x0 x1 x2 : (⟨S32x2048x64, .f32⟩ : BufTy).Contents (Elt Ideal))
    (x3 : (⟨S32x2048x2048, .i32⟩ : BufTy).Contents (Elt Ideal))
    (h0 : ∀ i, x0 i ≠ ⊤ ∧ x0 i ≠ ⊥) (h1 : ∀ i, x1 i ≠ ⊤ ∧ x1 i ≠ ⊥) (h3 : ∀ i, 0 ≤ (x3 i : BitVec 32).toInt) :
    val_main_v23 (F := Ideal) x0 x1 x2 x3 = outOf x0 x1 x2 x3 := by
  funext i
  obtain ⟨b, r, d, rfl⟩ : ∃ (b : Fin 32) (r : Fin 2048) (d : Fin 64), i = ix3 b r d := ⟨i 0, i 1, i 2, eq_ix3 i⟩
  rw [val_main_v23_apply, outOf_ix3, attn_ref x0 x1 x3 h0 h1 h3]
  exact Finset.sum_congr rfl fun l _ => by rw [lidx23 b r d l, ridx23 b r d l]

end Cert.ReferenceIdeal.RefValue

end
-- ==== Proof.Domain.lean ====
/-
  The precondition, decoded. It is the conjunction of four full reductions by `and`: every entry of the queries, of the
  keys and of the values has absolute value below `+∞` (so is a real number), and every mask entry is `≥ 0` and `≤ 1`
  as a signed integer. A full reduction by `and` that is 1 makes every element 1. What the proof uses: the query and key
  entries are real numbers, and the mask entries, read as integers, are `≥ 0`.
-/
import proofs.«180524_j31035433681575_2_alg».proof.Proof.Gen.Pre_finite_inputs
import proofs.«180524_j31035433681575_2_alg».proof.Proof.LibLayout
import Idealize.ShloMosaic.Lib.ReduceAll
import Idealize.ShloMosaic.Lib.Affine
import Idealize.ShloMosaic.Lib.ValueIdx
import Idealize.ShloMosaic.PureOps.Ideal.Laws

noncomputable section

namespace Cert.Domain

open Idealize.ShloMosaic Idealize.ShloMosaic.ValueIdx Cert.Pre_finite_inputs Cert.Pre_finite_inputs.Facts

/-- The result of a full reduction has one index. -/
instance : Subsingleton S_.Idx := ⟨fun a b => funext fun d => d.elim0⟩

theorem ofBool_eq_one (b : Bool) : BitVec.ofBool b = 1#1 ↔ b = true := by cases b <;> decide

/-- `and` of two one-bit vectors, at an index. -/
theorem andi_apply {s : Shape} (a b : IVec s 1) (i : s.Idx) : andi a b i = IntOp.andi (a i) (b i) := rfl

/-- The binary32 pattern of `+∞` denotes the top of the extended reals. -/
theorem ofBits_pos_inf : Ideal.ofBits .f32 0x7F800000#32 = ⊤ := by
  simp [Ideal.ofBits, Ideal.ieee]

/-- An extended real whose absolute value is below `+∞` is a real number. -/
theorem finite_of_abs_lt (x : EReal)
    (h : FloatOps.cmpf (F := Ideal) (φ := .f32) .olt (FloatOps.hostAbsf x) (Ideal.ofBits .f32 0x7F800000#32) = 1#1) :
    x ≠ ⊤ ∧ x ≠ ⊥ := by
  have h' : Ideal.cmp .olt (max x (-x)) (Ideal.ofBits .f32 0x7F800000#32) = 1#1 := h
  rw [ofBits_pos_inf] at h'
  unfold Ideal.cmp at h'
  rw [ofBool_eq_one, decide_eq_true_eq] at h'
  constructor
  · rintro rfl; simp at h'
  · rintro rfl; simp at h'

/-- A word that is `≥ 0` signed has a nonnegative integer value. -/
theorem nonneg_of_sge (w : BitVec 32) (h : IntOp.cmpi .sge w 0#32 = 1#1) : 0 ≤ w.toInt := by
  unfold IntOp.cmpi at h
  rw [ofBool_eq_one] at h
  simpa [BitVec.sle] using h

/-- THE PRECONDITION DECODED. -/
theorem decode (Q K V : FVec Ideal S32x2048x64 .f32) (Mk : IVec S32x2048x2048 32)
    (h : fn (F := Ideal) Q K V Mk = fun _ => 1#1) :
    (∀ i, Q i ≠ ⊤ ∧ Q i ≠ ⊥) ∧ (∀ i, K i ≠ ⊤ ∧ K i ≠ ⊥) ∧ (∀ i, 0 ≤ (Mk i).toInt) := by
  have e := congrFun h ix0
  unfold fn fn_part1 at e
  simp only [andi_apply, IntOp.andi_eq_one] at e
  obtain ⟨⟨⟨hq, hk⟩, -⟩, hm⟩ := e
  refine ⟨fun i => ?_, fun i => ?_, fun i => ?_⟩
  · have hb : broadcastInDim S32x2048x64 ![] bcast_S_S32x2048x64 (constant (F := Ideal) S_ .f32 0x7F800000#32) i
        = Ideal.ofBits .f32 0x7F800000#32 := Cert.LibLayout.broadcastInDim_scalar_apply _ _ i
    have hi : FloatOps.cmpf (F := Ideal) (φ := .f32) .olt (FloatOps.hostAbsf (Q i))
        (broadcastInDim S32x2048x64 ![] bcast_S_S32x2048x64 (constant (F := Ideal) S_ .f32 0x7F800000#32) i) = 1#1 :=
      Host.reduce_andi_all _ _ _ _ ix0 hq i
    rw [hb] at hi
    exact finite_of_abs_lt (Q i) hi
  · have hb : broadcastInDim S32x2048x64 ![] bcast_S_S32x2048x64 (constant (F := Ideal) S_ .f32 0x7F800000#32) i
        = Ideal.ofBits .f32 0x7F800000#32 := Cert.LibLayout.broadcastInDim_scalar_apply _ _ i
    have hi : FloatOps.cmpf (F := Ideal) (φ := .f32) .olt (FloatOps.hostAbsf (K i))
        (broadcastInDim S32x2048x64 ![] bcast_S_S32x2048x64 (constant (F := Ideal) S_ .f32 0x7F800000#32) i) = 1#1 :=
      Host.reduce_andi_all _ _ _ _ ix0 hk i
    rw [hb] at hi
    exact finite_of_abs_lt (K i) hi
  · have hb : broadcastInDim S32x2048x2048 ![] bcast_S_S32x2048x2048 (constantI S_ 32 0#32) i = 0#32 :=
      Cert.LibLayout.broadcastInDim_scalar_apply _ _ i
    have hi := Host.reduce_andi_all _ _ _ _ ix0 hm i
    rw [andi_apply, IntOp.andi_eq_one] at hi
    have hi0 : IntOp.cmpi .sge (Mk i) (broadcastInDim S32x2048x2048 ![] bcast_S_S32x2048x2048 (constantI S_ 32 0#32) i)
        = 1#1 := hi.1
    rw [hb] at hi0
    exact nonneg_of_sge (Mk i) hi0

end Cert.Domain

end
-- ==== Proof.lean ====
/-
  Scaled dot-product attention with a multiplicative mask, a Pallas kernel against its jnp reference, at the extended reals.

  For batch `b`, query row `r` and key `l` the masked score is `x l = (q_r · k_l / 8) · M[b,r,l]`; with `m` the row's
  maximum, `e l = exp (x l - m)`, `L = ∑ e l` and `S = ∑ e l · M[b,r,l]`, the attention result is
  `e j · M[b,r,j] / (S + ε · L)` and the output is the attention row against the values.

  The kernel scales the queries by `0.125` before the score product and multiplies the masked weights by one reciprocal
  `1 / (S + ε · L)` per row; the reference divides the finished scores by `8.0`, takes the softmax `e l / L`, masks it
  again and divides by `∑ (e l / L) · M + ε`. Both are the same real number when the query and key entries are real
  numbers (the precondition's finiteness: the scale and `1 / L` move across finite sums) and the mask entries are `≥ 0`
  (the precondition's mask domain: then every term of `∑ e l · (M + ε)` is positive, and no denominator vanishes — at a
  vanishing denominator a quotient `0 / 0` and a product `0 · (1 / 0)` differ on the extended reals).

  The kernel's result arrays as functions of the argument arrays: the body's tiles read entry by entry (KernelRow), the 128
  blocks tiling each array (Blocks). The reference's: its operations read at an index (RefRead), the two arrangements of a
  row (RefLaw, over the row law of LibMaskedSoftmax and the folded scale of LibScaledDot). The precondition decoded: Domain.
  The three frames are the generated ones; the idealization rewrote no operation.
-/
import proofs.«180524_j31035433681575_2_alg».proof.Defs
import proofs.«180524_j31035433681575_2_alg».proof.Proof.Gen.Kernel
import proofs.«180524_j31035433681575_2_alg».proof.Proof.Gen.Kernel.Frame
import proofs.«180524_j31035433681575_2_alg».proof.Proof.Gen.KernelIdeal
import proofs.«180524_j31035433681575_2_alg».proof.Proof.Gen.KernelIdeal.Frame
import proofs.«180524_j31035433681575_2_alg».proof.Proof.Gen.KernelIdeal.Value
import proofs.«180524_j31035433681575_2_alg».proof.Proof.Gen.ReferenceIdeal
import proofs.«180524_j31035433681575_2_alg».proof.Proof.Gen.ReferenceIdeal.Run
import proofs.«180524_j31035433681575_2_alg».proof.Proof.Gen.ReferenceIdeal.Read
import proofs.«180524_j31035433681575_2_alg».proof.Proof.Gen.Pre_finite_inputs
import proofs.«180524_j31035433681575_2_alg».proof.Proof.Blocks
import proofs.«180524_j31035433681575_2_alg».proof.Proof.RefRead
import proofs.«180524_j31035433681575_2_alg».proof.Proof.Domain
import Idealize.ShloMosaic.Adequacy
import Idealize.ShloMosaic.Init

noncomputable section

namespace Cert.Proof

open Idealize.ShloMosaic Idealize.SL.Sem Cert.Attn

/-- The kernel as printed runs and leaves its arguments unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- So does the reference: its run, the results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- The idealization rewrote no operation of the kernel. -/
theorem preserves : Cert.preserves_Kernel_KernelIdeal := trivial

/-- Both programs end with the output array and the attention array of the arguments. -/
theorem algebraic : Cert.algebraic_KernelIdeal_ReferenceIdeal := by
  intro m ρ m' ρ' hpre hagree
  refine ⟨fun c => outOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => attnOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    Cert.KernelIdeal.Blocks.run m ρ, ?_⟩
  refine (θ_run Cert.ReferenceIdeal.defs _ _).mono (fun r h c => ?_)
    (Cert.ReferenceIdeal.Value.run (F := Ideal) m' ρ')
  obtain ⟨h23, h22, hrest⟩ := h c
  obtain ⟨a0, a1, a2, a3⟩ := hagree c
  obtain ⟨hQ, hK, hM⟩ := Cert.Domain.decode _ _ _ _ (hpre c)
  refine ⟨h23.trans ?_, h22.trans ?_, hrest⟩
  · rw [Cert.ReferenceIdeal.Read.val_main_v23_eq, a0, a1, a2, a3]
    exact Cert.ReferenceIdeal.RefValue.out_ref _ _ _ _ hQ hK hM
  · rw [Cert.ReferenceIdeal.Read.val_main_v22_eq, a0, a1, a3]
    exact Cert.ReferenceIdeal.RefValue.attn_ref _ _ _ hQ hK hM

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
